-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x16 .f32) (main_arg5 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x64 : Shape := ⟨2, ![5000, 64]⟩
abbrev S5000x1 : Shape := ⟨2, ![5000, 1]⟩
abbrev S850000x64 : Shape := ⟨2, ![850000, 64]⟩
abbrev S1x64 : Shape := ⟨2, ![1, 64]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x64, .f32⟩
  | .hbm, ⟨38, _⟩ => ⟨S_, .f32⟩
  | .hbm, ⟨39, _⟩ => ⟨S50000x64, .f32⟩
  | .hbm, ⟨40, _⟩ => ⟨S850000x1, .i32⟩
  | .hbm, ⟨41, _⟩ => ⟨S50000x64, .f32⟩
  | .hbm, ⟨42, _⟩ => ⟨S1x64, .f32⟩
  | .hbm, ⟨43, _⟩ => ⟨S50000x16, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x16, .f32⟩
  | .hbm, ⟨53, _⟩ => ⟨S_, .f32⟩
  | .hbm, ⟨54, _⟩ => ⟨S50000x16, .f32⟩
  | .hbm, ⟨55, _⟩ => ⟨S850000x1, .i32⟩
  | .hbm, ⟨56, _⟩ => ⟨S50000x16, .f32⟩
  | .hbm, ⟨57, _⟩ => ⟨S1x16, .f32⟩
  | .hbm, ⟨58, _⟩ => ⟨S50000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  scatter_S50000_S850000x1_S850000_n_0_0_1_wf : ScatterDims.WF S50000 S850000x1 S850000 [] [0] [0] 1
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S50000x16.size a
  hwx1_4 : ∀ i : grid1.Coords, EltTy.bits .f32 = 32 ∨ (Rect.block (s := S50000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x16, .f32⟩
  | 5 => ⟨S16, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S50000x64, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S850000x1, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x64, .f32⟩
  | 57 => ⟨S850000x64, .f32⟩
  | 58 => ⟨S850000x64, .f32⟩
  | 59 => ⟨S_, .f32⟩
  | 60 => ⟨S50000x64, .f32⟩
  | 61 => ⟨S850000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x16, .f32⟩
  | 70 => ⟨S_, .f32⟩
  | 71 => ⟨S850000, .f32⟩
  | 72 => ⟨S_, .f32⟩
  | 73 => ⟨S50000, .f32⟩
  | 74 => ⟨S850000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S850000, .f32⟩
  | 103 => ⟨S850000x1, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x16, .f32⟩
  | 113 => ⟨S850000x16, .f32⟩
  | 114 => ⟨S850000x16, .f32⟩
  | 115 => ⟨S_, .f32⟩
  | 116 => ⟨S50000x16, .f32⟩
  | 117 => ⟨S850000x1, .i32⟩
  | 118 => ⟨S50000x16, .f32⟩
  | 119 => ⟨S1x16, .f32⟩
  | 120 => ⟨S50000x16, .f32⟩
  | 121 => ⟨S50000x16, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x64, .f32⟩

abbrev hbmTy0_1 (i : Nat) : BufTy := match i % 128 with
  | 0 => ⟨S50000x16, .f32⟩
  | 1 => ⟨S50000x16, .f32⟩
  | 2 => ⟨S50000x16, .f32⟩
  | 3 => ⟨S_, .f32⟩
  | 4 => ⟨S50000, .f32⟩
  | 5 => ⟨S50000x1, .f32⟩
  | 6 => ⟨S50000x1, .f32⟩
  | 7 => ⟨S50000x16, .f32⟩
  | 8 => ⟨S50000x16, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The idealized kernel's run with its result named. @main is eight segments — three stretches of host operations, the first
  region, a stretch, the second region, a stretch, the third region — and the contents of every buffer at each boundary are a
  fold from the launch memory: a stretch of host operations applies its operations' pure functions, a region leaves each of
  its arrays at what the write-backs of its grid points fold to and every other buffer as it found it. Every weakly fair
  execution terminates without a fault with every unscoped buffer at the last boundary's contents; so the result buffer
  ends at the last boundary's contents of that buffer, and the six argument arrays end as launched.
-/
import proofs.«169217_j1168231104918_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the segments' launch, and the last thread state read against the final
    state at the result buffer and at each argument. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«169217_j1168231104918_2_alg».proof.Proof.LibKeepdims
import proofs.«169217_j1168231104918_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibMaskedSumLinear.lean ====
/-
  A MASKED, WEIGHTED SUM OF ROWS COMMUTES WITH A LINEAR MAP. For finitely many rows `X e` (each a finite family of
  numbers), weights `v e`, a set of rows picked by `hit` and a column of coefficients `W`,

      ∑ f, (∑ e ∈ hit, v e · X e f) · W f = ∑ e ∈ hit, v e · (∑ f, X e f · W f).

  It is stated over the extended reals, with a leading `0 +` on each masked sum (the value a sum accumulated onto zero
  has), and needs every entry to be a real number: on the extended reals multiplication does not distribute over
  addition in general (`(⊤ + ⊥) · 1` against `⊤ · 1 + ⊥ · 1`). With real entries both sides are the images of the same
  real number, by distributivity, associativity and an exchange of the two finite sums.
-/
import Idealize.ShloMosaic.PureOps.Ideal

noncomputable section

open scoped BigOperators

namespace Cert.MaskedSum

/-- The image in the extended reals of a finite sum of real numbers is the sum of the images. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A choice between the image of a real number and zero is the image of the choice between that number and zero. -/
theorem ite_coe (p : Prop) [Decidable p] (a : ℝ) :
    (if p then (a : EReal) else 0) = ((if p then a else 0 : ℝ) : EReal) := by
  by_cases h : p
  · rw [if_pos h, if_pos h]
  · rw [if_neg h, if_neg h, EReal.coe_zero]

/-- The law over the real numbers: `∑ f, (∑ e ∈ hit, v e · X e f) · W f = ∑ e ∈ hit, v e · (∑ f, X e f · W f)`. -/
theorem real_sum_mul_eq_masked_sum {E K : Type} [Fintype E] [Fintype K] (hit : E → Prop) [DecidablePred hit]
    (v : E → ℝ) (X : E → K → ℝ) (W : K → ℝ) :
    ∑ f, (∑ e, if hit e then v e * X e f else 0) * W f = ∑ e, if hit e then v e * ∑ f, X e f * W f else 0 := by
  simp only [Finset.sum_mul, ite_mul, zero_mul]
  rw [Finset.sum_comm]
  refine Finset.sum_congr rfl fun e _ => ?_
  by_cases h : hit e
  · simp only [if_pos h]
    rw [Finset.mul_sum]
    exact Finset.sum_congr rfl fun f _ => mul_assoc _ _ _
  · simp only [if_neg h]
    exact Finset.sum_const_zero

/-- A MASKED, WEIGHTED SUM OF ROWS COMMUTES WITH A LINEAR MAP, over the extended reals, when every weight, row entry
    and coefficient is a real number: `∑ f, (0 + ∑ e ∈ hit, v e · X e f) · W f = 0 + ∑ e ∈ hit, v e · (∑ f, X e f · W f)`. -/
theorem sum_mul_eq_masked_sum {E K : Type} [Fintype E] [Fintype K] (hit : E → Prop) [DecidablePred hit]
    (v : E → EReal) (X : E → K → EReal) (W : K → EReal)
    (hv : ∀ e, ∃ r : ℝ, v e = (r : EReal)) (hX : ∀ e f, ∃ r : ℝ, X e f = (r : EReal)) (hW : ∀ f, ∃ r : ℝ, W f = (r : EReal)) :
    ∑ f, (0 + ∑ e, if hit e then v e * X e f else 0) * W f = 0 + ∑ e, if hit e then v e * ∑ f, X e f * W f else 0 := by
  choose v' hv using hv
  choose X' hX using hX
  choose W' hW using hW
  -- each side is the image of the corresponding real expression
  have hL : ∑ f, (0 + ∑ e, if hit e then v e * X e f else 0) * W f
      = ((∑ f, (∑ e, if hit e then v' e * X' e f else 0) * W' f : ℝ) : EReal) := by
    rw [coe_sum]
    refine Finset.sum_congr rfl fun f _ => ?_
    rw [zero_add, EReal.coe_mul, coe_sum, hW f]
    congr 1
    refine Finset.sum_congr rfl fun e _ => ?_
    rw [hv e, hX e f, ← EReal.coe_mul, ite_coe]
  have hR : 0 + ∑ e, (if hit e then v e * ∑ f, X e f * W f else 0)
      = ((∑ e, (if hit e then v' e * ∑ f, X' e f * W' f else 0) : ℝ) : EReal) := by
    rw [zero_add, coe_sum]
    refine Finset.sum_congr rfl fun e _ => ?_
    have hs : ∑ f, X e f * W f = ((∑ f, X' e f * W' f : ℝ) : EReal) := by
      rw [coe_sum]
      refine Finset.sum_congr rfl fun f _ => ?_
      rw [hX e f, hW f, EReal.coe_mul]
    rw [hs, hv e, ← EReal.coe_mul, ite_coe]
  rw [hL, hR, real_sum_mul_eq_masked_sum]

end Cert.MaskedSum

end
-- ==== Proof.GcnLaw.lean ====
/-
  A two-layer graph convolution over the extended reals, written two ways, and the law that makes them one function.

  The graph enters through four things: a scale `dinv n` per node (the inverse square root of its degree, zero for a node
  of degree zero), the node `src e` an edge's message is gathered from, the node `dst e` at which an edge's destination
  scale is gathered, and the relation `hit e n`, "edge e's message lands on node n". One layer takes node features
  `h : node → column → value` and a bias `b`:

    layerR h b n c = (0 + ∑ e, [hit e n] · ((dinv (src e) · dinv (dst e)) · h (src e) c)) + b c
    layerK h b n c = dinv n · (0 + ∑ e, [hit e n] · (h (src e) c · dinv (src e))) + b c

  The first scales every message by both end points' scales before summing; the second scales a message by its source's
  scale only, sums, and multiplies the sum by the destination's scale once. They agree when an edge that lands on `n`
  gathers its destination scale at `n` (`hit e n → dst e = n`) and every `dinv` and every feature is a real number: then
  both sides are images of real numbers and the equation is distributivity of multiplication over a finite sum. (On the
  extended reals distributivity fails at infinities, which is why the entries must be real.)

  The network is: features times a weight matrix (`lin`), a layer, the positive part (`relu`), times a second weight matrix,
  a second layer, and a log-softmax of each row taken after subtracting the row's maximum. `gcnK_eq_gcnR` is the network
  built from `layerK` against the one built from `layerR`.
-/
import Idealize.ShloMosaic.PureOps.Ideal
import proofs.«169217_j1168231104918_2_alg».proof.Proof.LibMaskedSumLinear

noncomputable section

open scoped BigOperators

namespace Cert.Gcn

open Idealize.ShloMosaic

/-! ## Real numbers among the extended reals -/

/-- An extended real that is the image of a real number. -/
def IsReal (v : EReal) : Prop := ∃ r : ℝ, v = (r : EReal)

theorem isReal_zero : IsReal 0 := ⟨0, EReal.coe_zero.symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.max {a b : EReal} (ha : IsReal a) (hb : IsReal b) : IsReal (max a b) := by
  rcases max_choice a b with h | h <;> rw [h] <;> assumption

theorem IsReal.ite {p : Prop} [Decidable p] {a b : EReal} (ha : IsReal a) (hb : IsReal b) : IsReal (if p then a else b) := by
  by_cases h : p
  · rw [if_pos h]; exact ha
  · rw [if_neg h]; exact hb

theorem IsReal.sum {ι : Type} (s : Finset ι) (f : ι → EReal) (h : ∀ i, IsReal (f i)) : IsReal (∑ i ∈ s, f i) := by
  choose g hg using h
  exact ⟨∑ i ∈ s, g i, by rw [Cert.MaskedSum.coe_sum]; exact Finset.sum_congr rfl fun i _ => hg i⟩

/-- The scale of a node whose degree `s` is a real number — `s` to the power −1/2 where `s` is positive, zero elsewhere —
    is a real number: a positive real has a real inverse square root. -/
theorem isReal_invSqrt_or_zero (s : EReal) (hs : IsReal s) :
    IsReal (Scalar.select (Ideal.cmp .ogt s 0) (Ideal.rsqrt s) 0) := by
  obtain ⟨r, rfl⟩ := hs
  show IsReal (if BitVec.ofBool (decide ((0 : EReal) < (r : EReal))) = 1 then Ideal.rsqrt (r : EReal) else 0)
  by_cases h : (0 : EReal) < (r : EReal)
  · have hr : 0 < r := by exact_mod_cast h
    rw [decide_eq_true h, if_pos (by decide : BitVec.ofBool true = 1), Ideal.rsqrt_coe, if_neg (not_lt.2 hr.le), if_neg hr.ne']
    exact ⟨_, rfl⟩
  · rw [decide_eq_false h, if_neg (by decide : ¬ BitVec.ofBool false = 1)]
    exact isReal_zero

/-! ## One layer, two ways -/

section Layer

variable {N E C : ℕ} (dinv : Fin N → EReal) (src dst : Fin E → Fin N) (hit : Fin E → Fin N → Prop)
  [∀ e n, Decidable (hit e n)]

/-- A layer that scales a message by its source's scale, sums, and scales the sum by the destination's scale. -/
def layerK (h : Fin N → Fin C → EReal) (b : Fin C → EReal) (n : Fin N) (c : Fin C) : EReal :=
  dinv n * (0 + ∑ e : Fin E, if hit e n then h (src e) c * dinv (src e) else 0) + b c

/-- A layer that scales every message by both end points' scales before summing. -/
def layerR (h : Fin N → Fin C → EReal) (b : Fin C → EReal) (n : Fin N) (c : Fin C) : EReal :=
  (0 + ∑ e : Fin E, if hit e n then (dinv (src e) * dinv (dst e)) * h (src e) c else 0) + b c

/-- The two layers agree on real scales and real features, when an edge landing on `n` gathers its destination scale at `n`. -/
theorem layerK_eq_layerR (hd : ∀ n, IsReal (dinv n)) (hdst : ∀ e n, hit e n → dst e = n)
    (h : Fin N → Fin C → EReal) (hh : ∀ n c, IsReal (h n c)) (b : Fin C → EReal) (n : Fin N) (c : Fin C) :
    layerK dinv src hit h b n c = layerR dinv src dst hit h b n c := by
  unfold layerK layerR
  refine congrArg (· + b c) ?_
  choose d' hd' using hd
  choose h' hh' using hh
  have hL : dinv n * (0 + ∑ e : Fin E, if hit e n then h (src e) c * dinv (src e) else 0)
      = ((d' n * ∑ e : Fin E, (if hit e n then h' (src e) c * d' (src e) else 0) : ℝ) : EReal) := by
    rw [EReal.coe_mul, Cert.MaskedSum.coe_sum, zero_add, hd' n]
    refine congrArg ((d' n : EReal) * ·) (Finset.sum_congr rfl fun e _ => ?_)
    rw [hh' (src e) c, hd' (src e), ← EReal.coe_mul, Cert.MaskedSum.ite_coe]
  have hR : 0 + ∑ e : Fin E, (if hit e n then (dinv (src e) * dinv (dst e)) * h (src e) c else 0)
      = ((∑ e : Fin E, (if hit e n then (d' (src e) * d' n) * h' (src e) c else 0) : ℝ) : EReal) := by
    rw [zero_add, Cert.MaskedSum.coe_sum]
    refine Finset.sum_congr rfl fun e _ => ?_
    by_cases he : hit e n
    · rw [if_pos he, if_pos he, hdst e n he, hd' (src e), hd' n, hh' (src e) c, ← EReal.coe_mul, ← EReal.coe_mul]
    · rw [if_neg he, if_neg he, EReal.coe_zero]
  rw [hL, hR]
  refine congrArg (fun r : ℝ => (r : EReal)) ?_
  rw [Finset.mul_sum]
  refine Finset.sum_congr rfl fun e _ => ?_
  by_cases he : hit e n
  · rw [if_pos he, if_pos he]; ring
  · rw [if_neg he, if_neg he, mul_zero]

/-- A layer of real scales, real features and a real bias is real. -/
theorem layerR_isReal (hd : ∀ n, IsReal (dinv n)) (h : Fin N → Fin C → EReal) (hh : ∀ n c, IsReal (h n c))
    (b : Fin C → EReal) (hb : ∀ c, IsReal (b c)) (n : Fin N) (c : Fin C) : IsReal (layerR dinv src dst hit h b n c) :=
  (isReal_zero.add (IsReal.sum _ _ fun e =>
    (((hd (src e)).mul (hd (dst e))).mul (hh (src e) c)).ite isReal_zero)).add (hb c)

end Layer

/-! ## The network -/

/-- Features times weights at (n, c). -/
def lin {N K C : ℕ} (X : Fin N → Fin K → EReal) (W : Fin K → Fin C → EReal) (n : Fin N) (c : Fin C) : EReal :=
  ∑ k : Fin K, X n k * W k c

theorem lin_isReal {N K C : ℕ} (X : Fin N → Fin K → EReal) (W : Fin K → Fin C → EReal)
    (hX : ∀ n k, IsReal (X n k)) (hW : ∀ k c, IsReal (W k c)) (n : Fin N) (c : Fin C) : IsReal (lin X W n c) :=
  IsReal.sum _ _ fun k => (hX n k).mul (hW k c)

/-- The positive part. -/
def relu (v : EReal) : EReal := max v 0

theorem relu_isReal {v : EReal} (hv : IsReal v) : IsReal (relu v) := hv.max isReal_zero

/-- The log-softmax of a row, taken after subtracting the row's maximum (the maximum folded from −∞). -/
def logSoftmaxRow {C : ℕ} (z : Fin C → EReal) (c : Fin C) : EReal :=
  (z c - (Finset.univ : Finset (Fin C)).fold max ⊥ z)
    - Ideal.log (∑ c' : Fin C, Ideal.exp (z c' - (Finset.univ : Finset (Fin C)).fold max ⊥ z))

section Network

variable {N E K H C : ℕ} (dinv : Fin N → EReal) (src dst : Fin E → Fin N) (hit : Fin E → Fin N → Prop)
  [∀ e n, Decidable (hit e n)]

/-- The network with the destination's scale applied once per node, after the sum. -/
def gcnK (x : Fin N → Fin K → EReal) (W1 : Fin K → Fin H → EReal) (b1 : Fin H → EReal) (W2 : Fin H → Fin C → EReal)
    (b2 : Fin C → EReal) (n : Fin N) (c : Fin C) : EReal :=
  logSoftmaxRow (layerK dinv src hit (lin (fun n' k => relu (layerK dinv src hit (lin x W1) b1 n' k)) W2) b2 n) c

/-- The network with both scales applied per edge, before the sum. -/
def gcnR (x : Fin N → Fin K → EReal) (W1 : Fin K → Fin H → EReal) (b1 : Fin H → EReal) (W2 : Fin H → Fin C → EReal)
    (b2 : Fin C → EReal) (n : Fin N) (c : Fin C) : EReal :=
  logSoftmaxRow (layerR dinv src dst hit (lin (fun n' k => relu (layerR dinv src dst hit (lin x W1) b1 n' k)) W2) b2 n) c

/-- The two networks are one function on real features, weights and first bias (the second bias is only added, so it
    may be any extended real). -/
theorem gcnK_eq_gcnR (hd : ∀ n, IsReal (dinv n)) (hdst : ∀ e n, hit e n → dst e = n)
    (x : Fin N → Fin K → EReal) (W1 : Fin K → Fin H → EReal) (b1 : Fin H → EReal) (W2 : Fin H → Fin C → EReal)
    (b2 : Fin C → EReal) (hx : ∀ n k, IsReal (x n k)) (hW1 : ∀ k c, IsReal (W1 k c)) (hb1 : ∀ c, IsReal (b1 c))
    (hW2 : ∀ k c, IsReal (W2 k c)) (n : Fin N) (c : Fin C) :
    gcnK dinv src hit x W1 b1 W2 b2 n c = gcnR dinv src dst hit x W1 b1 W2 b2 n c := by
  unfold gcnK gcnR
  have h1 : ∀ n' k, layerK dinv src hit (lin x W1) b1 n' k = layerR dinv src dst hit (lin x W1) b1 n' k := fun n' k =>
    layerK_eq_layerR dinv src dst hit hd hdst (lin x W1) (lin_isReal x W1 hx hW1) b1 n' k
  have e1 : (fun n' k => relu (layerK dinv src hit (lin x W1) b1 n' k))
      = (fun n' k => relu (layerR dinv src dst hit (lin x W1) b1 n' k)) :=
    funext fun n' => funext fun k => congrArg relu (h1 n' k)
  rw [e1]
  refine congrArg (fun z => logSoftmaxRow z c) (funext fun c' => ?_)
  exact layerK_eq_layerR dinv src dst hit hd hdst _
    (lin_isReal _ W2 (fun n' k => relu_isReal (layerR_isReal dinv src dst hit hd (lin x W1) (lin_isReal x W1 hx hW1) b1 hb1 n' k)) hW2)
    b2 n c'

end Network

end Cert.Gcn

end
-- ==== Proof.KernelPieces.lean ====
/-
  The three kernel bodies' arithmetic, read at an entry.

  Each body stores one value, a pure function of the blocks it loads (rows p of a band of 5000 nodes):
  * the first: (the band of x times W1) with row p scaled by the band's scale column — entry (p, q) is
    (∑ k, x(p,k) · W1(k,q)) · d(p);
  * the second: the aggregated band is scaled back by d(p), the bias row added, the positive part taken, then times W2 and
    scaled by d(p) again — entry (p, q) is (∑ k, relu (d(p) · a(p,k) + b(k)) · W2(k,q)) · d(p);
  * the third: z(p, ·) = d(p) · a(p, ·) + b, and entry (p, q) is the log-softmax of row z(p, ·) at q, taken after subtracting
    the row's maximum.
  At the ideal values a change of float format is the identity, a matrix unit's product into a zero accumulator is the sum
  over the contracted axis, and a one-axis maximum / add reduction is the fold of max from −∞ / the row's sum.
-/
import proofs.«169217_j1168231104918_2_alg».proof.Proof.Gen.KernelIdeal.Skeleton
import Idealize.ShloMosaic.Lib.Pipeline.Value
import Idealize.ShloMosaic.Lib.ValueIdx
import Idealize.ShloMosaic.PureOps.Ideal.Laws
import proofs.«169217_j1168231104918_2_alg».proof.Proof.LibDenseLayer
import proofs.«169217_j1168231104918_2_alg».proof.Proof.LibKeepdims
import proofs.«169217_j1168231104918_2_alg».proof.Proof.LibRowReduce
import proofs.«169217_j1168231104918_2_alg».proof.Proof.GcnLaw

noncomputable section

namespace Cert.KernelIdeal.Pieces

open Cert.KernelIdeal Cert.KernelIdeal.Gen Cert.Gcn
open Idealize.ShloMosaic Idealize.ShloMosaic.ValueIdx

/-! ## The two matrix products' index maps -/

local notation "dotA" => dot_S5000x64_S64x64_S5000x64_1_0_0_1_n_n
local notation "dotB" => dot_S5000x64_S64x16_S5000x16_1_0_0_1_n_n

theorem dotA_l0 (i : S5000x64.Idx) (q : (dotA).contr.Idx) : ((dotA).lhsIdx i q 0).val = (i 0).val := by
  unfold DotDims.lhsIdx
  rw [dif_neg (show ¬(0 : Fin S5000x64.rank) ∈ (dotA).lhsBatch by decide), dif_pos (show (0 : Fin S5000x64.rank) ∈ (dotA).lhsNonContracting by decide)]
  rfl
theorem dotA_l1 (i : S5000x64.Idx) (q : (dotA).contr.Idx) : ((dotA).lhsIdx i q 1).val = (q ⟨0, by decide⟩).val :=
  (dotA).lhsIdx_val_of_single rfl i q
theorem dotA_r0 (i : S5000x64.Idx) (q : (dotA).contr.Idx) : ((dotA).rhsIdx i q 0).val = (q ⟨0, by decide⟩).val :=
  (dotA).rhsIdx_val_of_single rfl i q
theorem dotA_r1 (i : S5000x64.Idx) (q : (dotA).contr.Idx) : ((dotA).rhsIdx i q 1).val = (i 1).val := by
  unfold DotDims.rhsIdx
  rw [dif_neg (show ¬(1 : Fin S64x64.rank) ∈ (dotA).rhsBatch by decide), dif_pos (show (1 : Fin S64x64.rank) ∈ (dotA).rhsNonContracting by decide)]
  rfl

theorem dotB_l0 (i : S5000x16.Idx) (q : (dotB).contr.Idx) : ((dotB).lhsIdx i q 0).val = (i 0).val := by
  unfold DotDims.lhsIdx
  rw [dif_neg (show ¬(0 : Fin S5000x64.rank) ∈ (dotB).lhsBatch by decide), dif_pos (show (0 : Fin S5000x64.rank) ∈ (dotB).lhsNonContracting by decide)]
  rfl
theorem dotB_l1 (i : S5000x16.Idx) (q : (dotB).contr.Idx) : ((dotB).lhsIdx i q 1).val = (q ⟨0, by decide⟩).val :=
  (dotB).lhsIdx_val_of_single rfl i q
theorem dotB_r0 (i : S5000x16.Idx) (q : (dotB).contr.Idx) : ((dotB).rhsIdx i q 0).val = (q ⟨0, by decide⟩).val :=
  (dotB).rhsIdx_val_of_single rfl i q
theorem dotB_r1 (i : S5000x16.Idx) (q : (dotB).contr.Idx) : ((dotB).rhsIdx i q 1).val = (i 1).val := by
  unfold DotDims.rhsIdx
  rw [dif_neg (show ¬(1 : Fin S64x16.rank) ∈ (dotB).rhsBatch by decide), dif_pos (show (1 : Fin S64x16.rank) ∈ (dotB).rhsNonContracting by decide)]
  rfl

/-! ## Layouts -/

/-- A row [1, b] (b > 1) broadcast to [a, b] reads, at (p, q), the row's entry q. -/
theorem rowBcast_apply {α : Type} {a b : ℕ} (hb : b ≠ 1) (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => show 0 = if (1 : ℕ) = 1 then 0 else p.val; rw [if_pos rfl]
  | ⟨1, _⟩ => show q.val = if b = 1 then 0 else q.val; rw [if_neg hb]

/-- A scale column [a, 1], cast to itself and broadcast to [a, b], reads at (p, q) the column's entry p. -/
theorem colBcast_apply {α : Type} {a b : ℕ} (v : (⟨2, ![a, 1]⟩ : Shape).Idx → α)
    (hc : (⟨2, ![a, 1]⟩ : Shape).ShapeCasts ⟨2, ![a, 1]⟩) (h : (⟨2, ![a, 1]⟩ : Shape).Broadcasts ⟨2, ![a, b]⟩) (p : Fin a) (q : Fin b) :
    broadcastTo ⟨2, ![a, b]⟩ (shapeCast ⟨2, ![a, 1]⟩ v hc) h (ix2 p q) = v (ix2 p (0 : Fin 1)) :=
  (Cert.Keepdims.broadcastTo_a1_ab_apply _ h p q).trans (congrFun (shapeCast_self v hc) _)

/-- The word of −∞ denotes −∞. -/
theorem ofBits_neg_inf : Ideal.ofBits .f32 0xFF800000#32 = (⊥ : EReal) := by simp [Ideal.ofBits, Ideal.ieee]

/-! ## The first body -/

theorem pay0_apply (x0 : Vec Ideal S5000x64 .f32) (x1 : Vec Ideal S64x64 .f32) (x2 : Vec Ideal S5000x1 .f32) (p : Fin 5000) (q : Fin 64) :
    k0_pay1 (F := Ideal) x0 x1 x2 (ix2 p q) = (∑ k : Fin 64, x0 (ix2 p k) * x1 (ix2 k q)) * x2 (ix2 p (0 : Fin 1)) := by
  unfold k0_pay1
  exact congrArg₂ (fun a b : EReal => a * b)
    (Cert.DenseLayer.matmul_rows_cols dotA rfl rfl dotA_l0 dotA_l1 dotA_r0 dotA_r1 none _ _ p q)
    (colBcast_apply x2 _ _ p q)

/-! ## The second body -/

theorem pay1_apply (v0 : Vec Ideal S5000x1 .f32) (v2 : Vec Ideal S5000x64 .f32) (v6 : Vec Ideal S1x64 .f32) (v13 : Vec Ideal S64x16 .f32)
    (v16 : Vec Ideal S5000x1 .f32) (p : Fin 5000) (q : Fin 16) :
    k1_pay1 (F := Ideal) v0 v2 v6 v13 v16 (ix2 p q)
      = (∑ k : Fin 64, relu (v0 (ix2 p (0 : Fin 1)) * v2 (ix2 p k) + v6 (ix2 (0 : Fin 1) k)) * v13 (ix2 k q)) * v16 (ix2 p (0 : Fin 1)) := by
  unfold k1_pay1
  refine congrArg₂ (fun a b : EReal => a * b) ?_ (colBcast_apply v16 _ _ p q)
  refine (Cert.DenseLayer.matmul_rows_cols dotB rfl rfl dotB_l0 dotB_l1 dotB_r0 dotB_r1 none _ _ p q).trans ?_
  refine Finset.sum_congr rfl fun k _ => congrArg (fun a : EReal => a * v13 (ix2 k q)) ?_
  refine congrArg₂ (fun a b : EReal => max a b) (congrArg₂ (fun a b : EReal => a + b)
    (congrArg₂ (fun a b : EReal => a * b) (colBcast_apply v0 _ _ p k) (congrFun (shapeCast_self v2 _) _)) ?_) Ideal.ofBits_zero_f32
  exact (rowBcast_apply (by decide) _ _ p k).trans (congrFun (shapeCast_self v6 _) _)

/-! ## The third body -/

/-- The log-softmax of the rows of a band `Z`, as the body spells it, at (p, q). -/
theorem rowLogSoftmax_apply (Z : FVec Ideal S5000x16 .f32) (p : Fin 5000) (q : Fin 16) :
    subf (subf Z (broadcastTo S5000x16 (shapeCast S5000x1 (multiReduction .maximumf [1] S5000 Z 0xFF800000#32 reduces_S5000x16_S5000 (.inl rfl) rfl) shapeCasts_S5000_S5000x1) broadcasts_S5000x1_S5000x16))
      (broadcastTo S5000x16 (log (shapeCast S5000x1 (multiReduction .add [1] S5000
        (exp (subf Z (broadcastTo S5000x16 (shapeCast S5000x1 (multiReduction .maximumf [1] S5000 Z 0xFF800000#32 reduces_S5000x16_S5000 (.inl rfl) rfl) shapeCasts_S5000_S5000x1) broadcasts_S5000x1_S5000x16)))
        0x00000000#32 reduces_S5000x16_S5000 (.inl rfl) rfl) shapeCasts_S5000_S5000x1)) broadcasts_S5000x1_S5000x16) (ix2 p q)
      = logSoftmaxRow (fun c' : Fin 16 => Z (ix2 p c')) q := by
  -- the row's maximum, spread back over the row
  have hM : ∀ c' : Fin 16,
      broadcastTo S5000x16 (shapeCast S5000x1 (multiReduction .maximumf [1] S5000 Z 0xFF800000#32 reduces_S5000x16_S5000 (.inl rfl) rfl) shapeCasts_S5000_S5000x1) broadcasts_S5000x1_S5000x16 (ix2 p c')
        = (Finset.univ : Finset (Fin 16)).fold max ⊥ (fun c'' => Z (ix2 p c'')) := fun c' =>
    (Cert.RowReduce.keepdims_apply _ shapeCasts_S5000_S5000x1 broadcasts_S5000x1_S5000x16 p c').trans
      ((Cert.RowReduce.rowMax_apply Z 0xFF800000#32 reduces_S5000x16_S5000 (.inl rfl) rfl p).trans
        (congrArg (fun b : EReal => (Finset.univ : Finset (Fin 16)).fold max b (fun c'' => Z (ix2 p c''))) ofBits_neg_inf))
  -- the exponentials of the shifted row
  have hE : ∀ c' : Fin 16,
      exp (subf Z (broadcastTo S5000x16 (shapeCast S5000x1 (multiReduction .maximumf [1] S5000 Z 0xFF800000#32 reduces_S5000x16_S5000 (.inl rfl) rfl) shapeCasts_S5000_S5000x1) broadcasts_S5000x1_S5000x16)) (ix2 p c')
        = Ideal.exp (Z (ix2 p c') - (Finset.univ : Finset (Fin 16)).fold max ⊥ (fun c'' => Z (ix2 p c''))) := fun c' =>
    congrArg (fun m : EReal => Ideal.exp (Z (ix2 p c') - m)) (hM c')
  unfold logSoftmaxRow
  refine congrArg₂ (fun a b : EReal => a - b) (congrArg (fun m : EReal => Z (ix2 p q) - m) (hM q)) ?_
  refine (Cert.Keepdims.broadcastTo_a1_ab_apply _ broadcasts_S5000x1_S5000x16 p q).trans ?_
  refine congrArg Ideal.log ?_
  refine (Cert.Keepdims.shapeCast_a_a1_apply _ shapeCasts_S5000_S5000x1 p 0).trans ?_
  exact (Cert.RowReduce.rowSum_apply _ 0x00000000#32 reduces_S5000x16_S5000 (.inl rfl) rfl p).trans (Finset.sum_congr rfl fun c' _ => hE c')

theorem pay2_apply (v0 : Vec Ideal S5000x1 .f32) (v2 : Vec Ideal S5000x16 .f32) (v6 : Vec Ideal S1x16 .f32) (p : Fin 5000) (q : Fin 16) :
    k2_pay1 (F := Ideal) v0 v2 v6 (ix2 p q)
      = logSoftmaxRow (fun c' : Fin 16 => v0 (ix2 p (0 : Fin 1)) * v2 (ix2 p c') + v6 (ix2 (0 : Fin 1) c')) q := by
  unfold k2_pay1
  refine (rowLogSoftmax_apply _ p q).trans (congrArg (fun z : Fin 16 → EReal => logSoftmaxRow z q) (funext fun c' => ?_))
  refine congrArg₂ (fun a b : EReal => a + b)
    (congrArg₂ (fun a b : EReal => a * b) (colBcast_apply v0 _ _ p c') (congrFun (shapeCast_self v2 _) _)) ?_
  exact (rowBcast_apply (by decide) _ _ p c').trans (congrFun (shapeCast_self v6 _) _)

end Cert.KernelIdeal.Pieces

end
-- ==== Proof.KernelRegion0.lean ====
/-
  The first region's result array as one function of the arrays it reads.

  The grid has ten points; point t stages rows 5000·t … 5000·t + 4999 of the features x (all 64 columns), the whole weight
  matrix W, and the same rows of the scale column d, and writes back the same rows of the result. What a point writes back
  is its body's value, so entry (n, c) of the result array is (∑ k, x(n,k) · W(k,c)) · d(n): the ten bands tile the 50000
  rows, each row n lying in band n / 5000.
-/
import proofs.«169217_j1168231104918_2_alg».proof.Proof.Gen.KernelIdeal.Frame
import proofs.«169217_j1168231104918_2_alg».proof.Proof.KernelPieces
import Idealize.ShloMosaic.Lib.Pipeline.Value

set_option maxRecDepth 16384

noncomputable section

namespace Cert.KernelIdeal.Region0

open Cert.KernelIdeal Cert.KernelIdeal.Gen Cert.KernelIdeal.Pieces
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (n, c) of the result: row n of x times column c of W, scaled by d(n). -/
def entry (x : S50000x64.Idx → EReal) (w : S64x64.Idx → EReal) (d : S50000x1.Idx → EReal) (n : Fin 50000) (c : Fin 64) : EReal :=
  (∑ k : Fin 64, x (ix2 n k) * w (ix2 k c)) * d (ix2 n (0 : Fin 1))

/-- The result array. -/
def G (x : S50000x64.Idx → EReal) (w : S64x64.Idx → EReal) (d : S50000x1.Idx → EReal) : S50000x64.Idx → EReal :=
  fun i => entry x w d (i 0) (i 1)

/-- The body's value at an index of its block. -/
theorem pay_at (x0 : Vec Ideal S5000x64 .f32) (x1 : Vec Ideal S64x64 .f32) (x2 : Vec Ideal S5000x1 .f32) (j : S5000x64.Idx) :
    k0_pay1 (F := Ideal) x0 x1 x2 j = (∑ k : Fin 64, x0 (ix2 (j 0) k) * x1 (ix2 k (j 1))) * x2 (ix2 (j 0) (0 : Fin 1)) :=
  (congrArg (k0_pay1 (F := Ideal) x0 x1 x2) (eq_ix2 j)).trans (pay0_apply x0 x1 x2 (j 0) (j 1))

/-- The printed index maps over the grid: the banded windows are at block t of the rows, the weight matrix at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the result array. -/
theorem flushed_eq (c : Dev nD) (t : Fin cfg0.N) :
    (dat0 V c).flushed 3 t = ((cfg0.win 3).blk t).view.read (Elt Ideal) (G (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  obtain ⟨e00, e01, e10, e11, e20, e21, e30, e31⟩ := idx_facts t
  funext j
  show k0_pay1 (F := Ideal) (iblk0 V c 0 t) (iblk0 V c 1 t) (iblk0 V c 2 t) j
    = G (V c main_arg0) (V c main_arg2) (V c main_v15) (((cfg0.win 3).blk t).view.emb j)
  refine (pay_at _ _ _ j).trans ?_
  unfold G entry
  refine congrArg₂ (fun a b : EReal => a * b)
    (Finset.sum_congr rfl fun k _ => congrArg₂ (fun a b : EReal => a * b) ?_ ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_arg2 (((cfg0.win 1).blk t).view.emb (ix2 k (j 1))) = V c main_arg2 (ix2 k ((((cfg0.win 3).blk t).view.emb j) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_v15 (((cfg0.win 2).blk t).view.emb (ix2 (j 0) (0 : Fin 1))) = V c main_v15 (ix2 ((((cfg0.win 3).blk t).view.emb j) 0) (0 : Fin 1))
    refine congrArg (V c main_v15) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the array is in the block of the point its row's band names. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  obtain ⟨-, -, -, -, -, -, e30, e31⟩ := idx_facts ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    omega

/-- The result array after the region. -/
theorem final (c : Dev nD) : (dat0 V c).arrAt 3 cfg0.N = G (V c main_arg0) (V c main_arg2) (V c main_v15) :=
  (dat0 V c).arrAt_eq_of_cover 3 _ (fun t _ => flushed_eq V c t) cover

end Cert.KernelIdeal.Region0

end
-- ==== Proof.KernelRegion1.lean ====
/-
  The second region's result array as one function of the arrays it reads.

  Point t of the ten stages rows 5000·t … 5000·t + 4999 of the aggregated features a (64 columns) and of the scale column d,
  the whole bias row b and the whole weight matrix W, and writes back the same rows of the result (16 columns). Entry (n, c)
  of the result array is (∑ k, relu (d(n) · a(n,k) + b(k)) · W(k,c)) · d(n); the ten bands tile the 50000 rows.
-/
import proofs.«169217_j1168231104918_2_alg».proof.Proof.Gen.KernelIdeal.Frame
import proofs.«169217_j1168231104918_2_alg».proof.Proof.KernelPieces
import Idealize.ShloMosaic.Lib.Pipeline.Value

set_option maxRecDepth 16384

noncomputable section

namespace Cert.KernelIdeal.Region1

open Cert.KernelIdeal Cert.KernelIdeal.Gen Cert.KernelIdeal.Pieces Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (n, c) of the result. -/
def entry (a : S50000x64.Idx → EReal) (d : S50000x1.Idx → EReal) (b : S1x64.Idx → EReal) (w : S64x16.Idx → EReal)
    (n : Fin 50000) (c : Fin 16) : EReal :=
  (∑ k : Fin 64, relu (d (ix2 n (0 : Fin 1)) * a (ix2 n k) + b (ix2 (0 : Fin 1) k)) * w (ix2 k c)) * d (ix2 n (0 : Fin 1))

/-- The result array. -/
def G (a : S50000x64.Idx → EReal) (d : S50000x1.Idx → EReal) (b : S1x64.Idx → EReal) (w : S64x16.Idx → EReal) : S50000x16.Idx → EReal :=
  fun i => entry a d b w (i 0) (i 1)

/-- The body's value at an index of its block. -/
theorem pay_at (v0 : Vec Ideal S5000x1 .f32) (v2 : Vec Ideal S5000x64 .f32) (v6 : Vec Ideal S1x64 .f32) (v13 : Vec Ideal S64x16 .f32)
    (v16 : Vec Ideal S5000x1 .f32) (j : S5000x16.Idx) :
    k1_pay1 (F := Ideal) v0 v2 v6 v13 v16 j
      = (∑ k : Fin 64, relu (v0 (ix2 (j 0) (0 : Fin 1)) * v2 (ix2 (j 0) k) + v6 (ix2 (0 : Fin 1) k)) * v13 (ix2 k (j 1))) * v16 (ix2 (j 0) (0 : Fin 1)) :=
  (congrArg (k1_pay1 (F := Ideal) v0 v2 v6 v13 v16) (eq_ix2 j)).trans (pay1_apply v0 v2 v6 v13 v16 (j 0) (j 1))

/-- The printed index maps over the grid: the banded windows are at block t of the rows, the bias row and the weight matrix at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the result array. -/
theorem flushed_eq (c : Dev nD) (t : Fin cfg1.N) :
    (dat1 V c).flushed 4 t = ((cfg1.win 4).blk t).view.read (Elt Ideal) (G (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz,
    View.ld_unit_zero (S := S64x16) hz]
  obtain ⟨e00, e01, e10, e11, e20, e21, e30, e31, e40, e41⟩ := idx_facts t
  funext j
  show k1_pay1 (F := Ideal) (iblk1 V c 1 t) (iblk1 V c 0 t) (iblk1 V c 2 t) (iblk1 V c 3 t) (iblk1 V c 1 t) j
    = G (V c main_v26) (V c main_v15) (V c main_v27) (V c main_arg4) (((cfg1.win 4).blk t).view.emb j)
  refine (pay_at _ _ _ _ _ j).trans ?_
  unfold G entry
  have hd : iblk1 V c 1 t (ix2 (j 0) (0 : Fin 1)) = V c main_v15 (ix2 ((((cfg1.win 4).blk t).view.emb j) 0) (0 : Fin 1)) := by
    show V c main_v15 (((cfg1.win 1).blk t).view.emb (ix2 (j 0) (0 : Fin 1))) = _
    refine congrArg (V c main_v15) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  refine congrArg₂ (fun a b : EReal => a * b)
    (Finset.sum_congr rfl fun k _ => congrArg₂ (fun a b : EReal => a * b)
      (congrArg relu (congrArg₂ (fun a b : EReal => a + b) (congrArg₂ (fun a b : EReal => a * b) hd ?_) ?_)) ?_) hd
  · show V c main_v26 (((cfg1.win 0).blk t).view.emb (ix2 (j 0) k)) = V c main_v26 (ix2 ((((cfg1.win 4).blk t).view.emb j) 0) k)
    refine congrArg (V c main_v26) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  · show V c main_v27 (((cfg1.win 2).blk t).view.emb (ix2 (0 : Fin 1) k)) = V c main_v27 (ix2 (0 : Fin 1) k)
    refine congrArg (V c main_v27) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg4 (((cfg1.win 3).blk t).view.emb (ix2 k (j 1))) = V c main_arg4 (ix2 k ((((cfg1.win 4).blk t).view.emb j) 1))
    refine congrArg (V c main_arg4) (funext fun a => Fin.ext ?_)
    match a with
    | ⟨0, _⟩ => show win1_3.index t (0 : Fin 2) * 64 + 1 * k.val = k.val; omega
    | ⟨1, _⟩ => show win1_3.index t (1 : Fin 2) * 16 + 1 * (j 1).val = win1_4.index t (1 : Fin 2) * 16 + 1 * (j 1).val; omega

/-- An index of the array is in point t's block iff each coordinate is in the block's range on its axis. -/
theorem mem_blk (t : Fin cfg1.N) (i : S50000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v28).slice (win1_4.rect t)).set ↔ _
  rw [View.set_slice_whole, Rect.mem_set_unit]
  exact Iff.rfl

/-- Every index of the array is in the block of the point its row's band names. -/
theorem cover (i : S50000x16.Idx) : ∃ t : Fin cfg1.N, (cfg1.win 4).flush t = true ∧ i ∈ ((cfg1.win 4).blk t).view.set := by
  have hi0 : (i 0).val < 50000 := (i 0).isLt
  have hi1 : (i 1).val < 16 := (i 1).isLt
  have hN : grid1.N = 10 := N_1
  have ht : (i 0).val / 5000 < cfg1.N := by show (i 0).val / 5000 < grid1.N; omega
  obtain ⟨-, -, -, -, -, -, -, -, e40, e41⟩ := idx_facts ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    omega
  | ⟨1, _⟩ =>
    show win1_4.index ⟨(i 0).val / 5000, ht⟩ (1 : Fin 2) * 16 ≤ (i 1).val ∧ (i 1).val < win1_4.index ⟨(i 0).val / 5000, ht⟩ (1 : Fin 2) * 16 + 16
    omega

/-- The result array after the region. -/
theorem final (c : Dev nD) : (dat1 V c).arrAt 4 cfg1.N = G (V c main_v26) (V c main_v15) (V c main_v27) (V c main_arg4) :=
  (dat1 V c).arrAt_eq_of_cover 4 _ (fun t _ => flushed_eq V c t) cover

end Cert.KernelIdeal.Region1

end
-- ==== Proof.KernelRegion2.lean ====
/-
  The third region's result array as one function of the arrays it reads.

  Point t of the ten stages rows 5000·t … 5000·t + 4999 of the aggregated features a (16 columns) and of the scale column d and
  the whole bias row b, and writes back the same rows of the result. With z(n, c) = d(n) · a(n,c) + b(c), entry (n, c) of the
  result array is the log-softmax of row z(n, ·) at c, taken after subtracting the row's maximum; the ten bands tile the rows.
-/
import proofs.«169217_j1168231104918_2_alg».proof.Proof.Gen.KernelIdeal.Frame
import proofs.«169217_j1168231104918_2_alg».proof.Proof.KernelPieces
import Idealize.ShloMosaic.Lib.Pipeline.Value

set_option maxRecDepth 16384

noncomputable section

namespace Cert.KernelIdeal.Region2

open Cert.KernelIdeal Cert.KernelIdeal.Gen Cert.KernelIdeal.Pieces Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (n, c) of the result. -/
def entry (a : S50000x16.Idx → EReal) (d : S50000x1.Idx → EReal) (b : S1x16.Idx → EReal) (n : Fin 50000) (c : Fin 16) : EReal :=
  logSoftmaxRow (fun c' : Fin 16 => d (ix2 n (0 : Fin 1)) * a (ix2 n c') + b (ix2 (0 : Fin 1) c')) c

/-- The result array. -/
def G (a : S50000x16.Idx → EReal) (d : S50000x1.Idx → EReal) (b : S1x16.Idx → EReal) : S50000x16.Idx → EReal :=
  fun i => entry a d b (i 0) (i 1)

/-- The body's value at an index of its block. -/
theorem pay_at (v0 : Vec Ideal S5000x1 .f32) (v2 : Vec Ideal S5000x16 .f32) (v6 : Vec Ideal S1x16 .f32) (j : S5000x16.Idx) :
    k2_pay1 (F := Ideal) v0 v2 v6 j
      = logSoftmaxRow (fun c' : Fin 16 => v0 (ix2 (j 0) (0 : Fin 1)) * v2 (ix2 (j 0) c') + v6 (ix2 (0 : Fin 1) c')) (j 1) :=
  (congrArg (k2_pay1 (F := Ideal) v0 v2 v6) (eq_ix2 j)).trans (pay2_apply v0 v2 v6 (j 0) (j 1))

/-- The printed index maps over the grid: the banded windows are at block t of the rows, the bias row at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the result array. -/
theorem flushed_eq (c : Dev nD) (t : Fin cfg2.N) :
    (dat2 V c).flushed 3 t = ((cfg2.win 3).blk t).view.read (Elt Ideal) (G (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x16) hz, View.ld_unit_zero (S := S5000x1) hz, View.ld_unit_zero (S := S1x16) hz]
  obtain ⟨e00, e01, e10, e11, e20, e21, e30, e31⟩ := idx_facts t
  funext j
  show k2_pay1 (F := Ideal) (iblk2 V c 1 t) (iblk2 V c 0 t) (iblk2 V c 2 t) j
    = G (V c main_v38) (V c main_v15) (V c main_v39) (((cfg2.win 3).blk t).view.emb j)
  refine (pay_at _ _ _ j).trans ?_
  unfold G entry
  have hq : (j 1 : Fin 16) = ((((cfg2.win 3).blk t).view.emb j) 1 : Fin 16) := Fin.ext (by
    show (j 1).val = win2_3.index t (1 : Fin 2) * 16 + 1 * (j 1).val; omega)
  refine congrArg₂ (fun (z : Fin 16 → EReal) (q : Fin 16) => logSoftmaxRow z q) (funext fun c' =>
    congrArg₂ (fun a b : EReal => a + b) (congrArg₂ (fun a b : EReal => a * b) ?_ ?_) ?_) hq
  · show V c main_v15 (((cfg2.win 1).blk t).view.emb (ix2 (j 0) (0 : Fin 1))) = V c main_v15 (ix2 ((((cfg2.win 3).blk t).view.emb j) 0) (0 : Fin 1))
    refine congrArg (V c main_v15) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · show V c main_v38 (((cfg2.win 0).blk t).view.emb (ix2 (j 0) c')) = V c main_v38 (ix2 ((((cfg2.win 3).blk t).view.emb j) 0) c')
    refine congrArg (V c main_v38) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 16 + 1 * c'.val = c'.val; omega
  · show V c main_v39 (((cfg2.win 2).blk t).view.emb (ix2 (0 : Fin 1) c')) = V c main_v39 (ix2 (0 : Fin 1) c')
    refine congrArg (V c main_v39) (funext fun a => Fin.ext ?_)
    match a with
    | ⟨0, _⟩ => show win2_2.index t (0 : Fin 2) * 1 + 1 * 0 = 0; omega
    | ⟨1, _⟩ => show win2_2.index t (1 : Fin 2) * 16 + 1 * c'.val = c'.val; omega

/-- An index of the array is in point t's block iff each coordinate is in the block's range on its axis. -/
theorem mem_blk (t : Fin cfg2.N) (i : S50000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v40).slice (win2_3.rect t)).set ↔ _
  rw [View.set_slice_whole, Rect.mem_set_unit]
  exact Iff.rfl

/-- Every index of the array is in the block of the point its row's band names. -/
theorem cover (i : S50000x16.Idx) : ∃ t : Fin cfg2.N, (cfg2.win 3).flush t = true ∧ i ∈ ((cfg2.win 3).blk t).view.set := by
  have hi0 : (i 0).val < 50000 := (i 0).isLt
  have hi1 : (i 1).val < 16 := (i 1).isLt
  have hN : grid2.N = 10 := N_2
  have ht : (i 0).val / 5000 < cfg2.N := by show (i 0).val / 5000 < grid2.N; omega
  obtain ⟨-, -, -, -, -, -, e30, e31⟩ := idx_facts ⟨(i 0).val / 5000, ht⟩
  have e30' : win2_3.index ⟨(i 0).val / 5000, ht⟩ (0 : Fin 2) = (i 0).val / 5000 := e30
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    omega
  | ⟨1, _⟩ =>
    show win2_3.index ⟨(i 0).val / 5000, ht⟩ (1 : Fin 2) * 16 ≤ (i 1).val ∧ (i 1).val < win2_3.index ⟨(i 0).val / 5000, ht⟩ (1 : Fin 2) * 16 + 16
    omega

/-- The result array after the region. -/
theorem final (c : Dev nD) : (dat2 V c).arrAt 3 cfg2.N = G (V c main_v38) (V c main_v15) (V c main_v39) :=
  (dat2 V c).arrAt_eq_of_cover 3 _ (fun t _ => flushed_eq V c t) cover

end Cert.KernelIdeal.Region2

end
-- ==== Proof.KernelHost.lean ====
/-
  The idealized kernel's result buffer as a nest of its three regions' functions.

  Between the regions the host gathers, for every edge, the row of the previous region's result at the edge's source node
  (a negative node number is first wrapped by the node count; the gather clamps it) and scatter-adds those rows onto zeros at
  the edges' destination nodes (`agg64`, `agg16`); it also lays each bias out as a row. Every other buffer passes through a
  stretch of host operations unchanged, and a region leaves the arrays it only reads as it found them and its result array at
  its function of them. Reading the result buffer back through the last region, the stretch before it, the second region,
  the stretch before it and the first region leaves a term over eight buffers of the first region's entry contents: the
  features, the two weight matrices, the two biases, the scale column, and the edges' source and destination node numbers.
-/
import proofs.«169217_j1168231104918_2_alg».proof.Proof.Gen.KernelIdeal.Frame
import proofs.«169217_j1168231104918_2_alg».proof.Proof.KernelRegion0
import proofs.«169217_j1168231104918_2_alg».proof.Proof.KernelRegion1
import proofs.«169217_j1168231104918_2_alg».proof.Proof.KernelRegion2
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## The host's terms between the regions -/

/-- Node numbers with the negative ones wrapped by the node count. -/
def wrap (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- Node numbers laid out as a column. -/
def col (s : IVec S850000 32) : IVec S850000x1 32 := broadcastInDim S850000x1 ![0] bcast_S850000_S850000x1_0 s

/-- Rows of `h` gathered at the edges' source nodes `s3` and summed onto zeros at their destination nodes `s6` (64 columns). -/
def agg64 (h : FVec Ideal S50000x64 .f32) (s3 s6 : IVec S850000 32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32)) (col s6)
    (Host.gather gather_S50000x64_S850000x1_S850000x64_1_0_n_n_0_1_164 h (col (wrap s3)))

/-- The same for 16 columns. -/
def agg16 (h : FVec Ideal S50000x16 .f32) (s3 s6 : IVec S850000 32) : FVec Ideal S50000x16 .f32 :=
  Host.scatterAdd (F := Ideal) scatter_S50000x16_S850000x1_S850000x16_1_0_0_1
    (broadcastInDim S50000x16 ![] bcast_S_S50000x16 (constant (F := Ideal) S_ .f32 0x00000000#32)) (col s6)
    (Host.gather gather_S50000x16_S850000x1_S850000x16_1_0_n_n_0_1_116 h (col (wrap s3)))

/-- A bias of 64 entries laid out as a row. -/
def row64 (b : FVec Ideal S64 .f32) : FVec Ideal S1x64 .f32 := shapeCast S1x64 b shapeCasts_S64_S1x64

/-- A bias of 16 entries laid out as a row. -/
def row16 (b : FVec Ideal S16 .f32) : FVec Ideal S1x16 .f32 := shapeCast S1x16 b shapeCasts_S16_S1x16

/-! ## A stretch of host operations, from any contents -/

section Stretch

variable (W : Valuation τ sig (Elt Ideal))

theorem host1_v26 : after (hostOps1 (F := Ideal)) W (Proc.devRef .tc main_v26)
    = agg64 (W (Proc.devRef .tc main_v16)) (W (Proc.devRef .tc main_v3)) (W (Proc.devRef .tc main_v6)) := by
  after_results; rfl
theorem host1_v27 : after (hostOps1 (F := Ideal)) W (Proc.devRef .tc main_v27) = row64 (W (Proc.devRef .tc main_arg3)) := by
  after_results; rfl
theorem host1_v15 : after (hostOps1 (F := Ideal)) W (Proc.devRef .tc main_v15) = W (Proc.devRef .tc main_v15) := by after_results
theorem host1_arg4 : after (hostOps1 (F := Ideal)) W (Proc.devRef .tc main_arg4) = W (Proc.devRef .tc main_arg4) := by after_results
theorem host1_v3 : after (hostOps1 (F := Ideal)) W (Proc.devRef .tc main_v3) = W (Proc.devRef .tc main_v3) := by after_results
theorem host1_v6 : after (hostOps1 (F := Ideal)) W (Proc.devRef .tc main_v6) = W (Proc.devRef .tc main_v6) := by after_results
theorem host1_arg5 : after (hostOps1 (F := Ideal)) W (Proc.devRef .tc main_arg5) = W (Proc.devRef .tc main_arg5) := by after_results

theorem host2_v38 : after (hostOps2 (F := Ideal)) W (Proc.devRef .tc main_v38)
    = agg16 (W (Proc.devRef .tc main_v28)) (W (Proc.devRef .tc main_v3)) (W (Proc.devRef .tc main_v6)) := by
  after_results; rfl
theorem host2_v39 : after (hostOps2 (F := Ideal)) W (Proc.devRef .tc main_v39) = row16 (W (Proc.devRef .tc main_arg5)) := by
  after_results; rfl
theorem host2_v15 : after (hostOps2 (F := Ideal)) W (Proc.devRef .tc main_v15) = W (Proc.devRef .tc main_v15) := by after_results

end Stretch

/-! ## The result buffer, read back to the first region's entry -/

variable (m : (ℓ : Loc nD τ sig) → Buf (Elt Ideal) ℓ) (ρ : Dev nD → PrngReg)

/-- The result buffer at the last boundary is the third region's function of the second aggregation, which is over the second
    region's function of the first aggregation, which is over the first region's function — all over the first region's
    entry contents. -/
theorem result_nest (c : Dev nD) :
    W8 m ρ c (Proc.devRef .tc main_v40)
      = Region2.G
          (agg16
            (Region1.G
              (agg64 (Region0.G (W3 m ρ c (Proc.devRef .tc main_arg0)) (W3 m ρ c (Proc.devRef .tc main_arg2)) (W3 m ρ c (Proc.devRef .tc main_v15)))
                (W3 m ρ c (Proc.devRef .tc main_v3)) (W3 m ρ c (Proc.devRef .tc main_v6)))
              (W3 m ρ c (Proc.devRef .tc main_v15)) (row64 (W3 m ρ c (Proc.devRef .tc main_arg3))) (W3 m ρ c (Proc.devRef .tc main_arg4)))
            (W3 m ρ c (Proc.devRef .tc main_v3)) (W3 m ρ c (Proc.devRef .tc main_v6)))
          (W3 m ρ c (Proc.devRef .tc main_v15)) (row16 (W3 m ρ c (Proc.devRef .tc main_arg5))) := by
  -- the third region
  have e8 : W8 m ρ c (Proc.devRef .tc main_v40)
      = Region2.G (W7 m ρ c (Proc.devRef .tc main_v38)) (W7 m ρ c (Proc.devRef .tc main_v15)) (W7 m ρ c (Proc.devRef .tc main_v39)) :=
    (W8_arr m ρ c 3).trans (Region2.final (V7 m ρ) c)
  -- the stretch before it
  have e7a : W7 m ρ c (Proc.devRef .tc main_v38)
      = agg16 (W6 m ρ c (Proc.devRef .tc main_v28)) (W6 m ρ c (Proc.devRef .tc main_v3)) (W6 m ρ c (Proc.devRef .tc main_v6)) := host2_v38 (W6 m ρ c)
  have e7b : W7 m ρ c (Proc.devRef .tc main_v39) = row16 (W6 m ρ c (Proc.devRef .tc main_arg5)) := host2_v39 (W6 m ρ c)
  have e7c : W7 m ρ c (Proc.devRef .tc main_v15) = W6 m ρ c (Proc.devRef .tc main_v15) := host2_v15 (W6 m ρ c)
  -- the second region
  have e6a : W6 m ρ c (Proc.devRef .tc main_v28)
      = Region1.G (W5 m ρ c (Proc.devRef .tc main_v26)) (W5 m ρ c (Proc.devRef .tc main_v15)) (W5 m ρ c (Proc.devRef .tc main_v27)) (W5 m ρ c (Proc.devRef .tc main_arg4)) :=
    (W6_arr m ρ c 4).trans (Region1.final (V5 m ρ) c)
  have e6b : W6 m ρ c (Proc.devRef .tc main_v15) = W5 m ρ c (Proc.devRef .tc main_v15) :=
    (W6_arr m ρ c 1).trans (((dat1 (V5 m ρ) c).arrAt_in 1 rfl _).trans (A_eq1 (V5 m ρ) c 1))
  have e6c : W6 m ρ c (Proc.devRef .tc main_v3) = W5 m ρ c (Proc.devRef .tc main_v3) := W6_of_ne m ρ c main_v3 (by decide)
  have e6d : W6 m ρ c (Proc.devRef .tc main_v6) = W5 m ρ c (Proc.devRef .tc main_v6) := W6_of_ne m ρ c main_v6 (by decide)
  have e6e : W6 m ρ c (Proc.devRef .tc main_arg5) = W5 m ρ c (Proc.devRef .tc main_arg5) := W6_of_ne m ρ c main_arg5 (by decide)
  -- the stretch before it
  have e5a : W5 m ρ c (Proc.devRef .tc main_v26)
      = agg64 (W4 m ρ c (Proc.devRef .tc main_v16)) (W4 m ρ c (Proc.devRef .tc main_v3)) (W4 m ρ c (Proc.devRef .tc main_v6)) := host1_v26 (W4 m ρ c)
  have e5b : W5 m ρ c (Proc.devRef .tc main_v27) = row64 (W4 m ρ c (Proc.devRef .tc main_arg3)) := host1_v27 (W4 m ρ c)
  have e5c : W5 m ρ c (Proc.devRef .tc main_v15) = W4 m ρ c (Proc.devRef .tc main_v15) := host1_v15 (W4 m ρ c)
  have e5d : W5 m ρ c (Proc.devRef .tc main_arg4) = W4 m ρ c (Proc.devRef .tc main_arg4) := host1_arg4 (W4 m ρ c)
  have e5e : W5 m ρ c (Proc.devRef .tc main_v3) = W4 m ρ c (Proc.devRef .tc main_v3) := host1_v3 (W4 m ρ c)
  have e5f : W5 m ρ c (Proc.devRef .tc main_v6) = W4 m ρ c (Proc.devRef .tc main_v6) := host1_v6 (W4 m ρ c)
  have e5g : W5 m ρ c (Proc.devRef .tc main_arg5) = W4 m ρ c (Proc.devRef .tc main_arg5) := host1_arg5 (W4 m ρ c)
  -- the first region
  have e4a : W4 m ρ c (Proc.devRef .tc main_v16)
      = Region0.G (W3 m ρ c (Proc.devRef .tc main_arg0)) (W3 m ρ c (Proc.devRef .tc main_arg2)) (W3 m ρ c (Proc.devRef .tc main_v15)) :=
    (W4_arr m ρ c 3).trans (Region0.final (V3 m ρ) c)
  have e4b : W4 m ρ c (Proc.devRef .tc main_v15) = W3 m ρ c (Proc.devRef .tc main_v15) :=
    (W4_arr m ρ c 2).trans (((dat0 (V3 m ρ) c).arrAt_in 2 rfl _).trans (A_eq0 (V3 m ρ) c 2))
  have e4c : W4 m ρ c (Proc.devRef .tc main_v3) = W3 m ρ c (Proc.devRef .tc main_v3) := W4_of_ne m ρ c main_v3 (by decide)
  have e4d : W4 m ρ c (Proc.devRef .tc main_v6) = W3 m ρ c (Proc.devRef .tc main_v6) := W4_of_ne m ρ c main_v6 (by decide)
  have e4e : W4 m ρ c (Proc.devRef .tc main_arg3) = W3 m ρ c (Proc.devRef .tc main_arg3) := W4_of_ne m ρ c main_arg3 (by decide)
  have e4f : W4 m ρ c (Proc.devRef .tc main_arg4) = W3 m ρ c (Proc.devRef .tc main_arg4) := W4_of_ne m ρ c main_arg4 (by decide)
  have e4g : W4 m ρ c (Proc.devRef .tc main_arg5) = W3 m ρ c (Proc.devRef .tc main_arg5) := W4_of_ne m ρ c main_arg5 (by decide)
  rw [e8, e7a, e7b, e7c, e6a, e6b, e6c, e6d, e6e, e5a, e5b, e5c, e5d, e5e, e5f, e5g, e4a, e4b, e4c, e4d, e4e, e4f, e4g]

end Cert.KernelIdeal.HostVals

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.GcnGraph.lean ====
/-
  The graph data of the network as both programs hold it, over the literal sizes (50000 nodes, 850000 edges: the 800000
  given edges and one self-loop per node). Both programs keep, per edge, integer node numbers laid out as a column
  [850000, 1], and per node a scale laid out as a vector of 50000 entries:

  * `nodeScale d n` is entry n of the scale vector;
  * `edgeRow idx e` is the node a gather reads for edge e from the column `idx`: the number read signed and clamped into
    [0, 49999] (a gather clamps its start index so that the slice fits);
  * `edgeHits idx e n` says the scatter-add lands edge e on node n: the number read signed and NOT clamped is n (an edge
    whose number is negative or at least 50000 is dropped).

  `mat` and `vec` read a matrix and a vector by coordinates.
-/
import Idealize.ShloMosaic.Lib.ValueIdx
import proofs.«169217_j1168231104918_2_alg».proof.Proof.GcnLaw
import proofs.«169217_j1168231104918_2_alg».proof.Proof.LibRowGather
import proofs.«169217_j1168231104918_2_alg».proof.Proof.LibRowScatterAdd

noncomputable section

namespace Cert.Gcn

open Idealize.ShloMosaic Idealize.ShloMosaic.ValueIdx

/-- Entry (p, q) of a matrix. -/
def mat {a b : ℕ} (x : (⟨2, ![a, b]⟩ : Shape).Idx → EReal) (p : Fin a) (q : Fin b) : EReal := x (ix2 p q)

/-- Entry p of a vector. -/
def vec {a : ℕ} (x : (⟨1, ![a]⟩ : Shape).Idx → EReal) (p : Fin a) : EReal := x (ix1 p)

/-- The scale of node n. -/
def nodeScale (d : (⟨1, ![50000]⟩ : Shape).Idx → EReal) (n : Fin 50000) : EReal := d (ix1 n)

/-- The node a gather reads for edge e: its number read signed and clamped into [0, 49999]. -/
def edgeRow (idx : IVec ⟨2, ![850000, 1]⟩ 32) (e : Fin 850000) : Fin 50000 :=
  Cert.RowGather.row (N := 50000) (by decide) idx e

/-- The scatter-add lands edge e on node n: its number read signed, not clamped, is n. -/
def edgeHits (idx : IVec ⟨2, ![850000, 1]⟩ 32) (e : Fin 850000) (n : Fin 50000) : Prop :=
  Cert.RowScatterAdd.hits idx e n

instance (idx : IVec ⟨2, ![850000, 1]⟩ 32) (e : Fin 850000) (n : Fin 50000) : Decidable (edgeHits idx e n) := by
  unfold edgeHits; infer_instance

/-- An edge that lands on node n has, read signed, the number n at its entry of the column. -/
theorem edgeHits_iff (idx : IVec ⟨2, ![850000, 1]⟩ 32) (e : Fin 850000) (n : Fin 50000) :
    edgeHits idx e n ↔ (idx (ix2 e (0 : Fin 1))).toInt = (n.val : Int) := Iff.rfl

/-- The node a gather reads for edge e, as a number. -/
theorem edgeRow_val (idx : IVec ⟨2, ![850000, 1]⟩ 32) (e : Fin 850000) :
    (edgeRow idx e).val = min (idx (ix2 e (0 : Fin 1))).toInt.toNat 49999 := rfl

end Cert.Gcn

end
-- ==== Proof.KernelValue.lean ====
/-
  The kernel's nest of region functions, read at an entry, is the network `gcnK`.

  An aggregation `agg` of a table H at (n, c) is zero plus the sum, over the edges that land on node n, of H at (the edge's
  gathered source node, c): a scatter-add onto zeros of gathered rows. Each region's table is (something) · dinv(n): the first
  region's is (x·W1)(n, c) · dinv(n), the second's (relu(layer 1)·W2)(n, c) · dinv(n). So dinv(n) · agg(n, c) + b(c) is the
  layer `layerK` — a message scaled by its source's scale, summed, scaled once by the destination's — and the third region
  takes the log-softmax of the second layer's rows.
-/
import proofs.«169217_j1168231104918_2_alg».proof.Proof.KernelHost
import proofs.«169217_j1168231104918_2_alg».proof.Proof.GcnGraph
import proofs.«169217_j1168231104918_2_alg».proof.Proof.LibRowGather
import proofs.«169217_j1168231104918_2_alg».proof.Proof.LibRowScatterAdd

noncomputable section

namespace Cert.KernelIdeal.KValue

open Cert.KernelIdeal Cert.KernelIdeal.Gen Cert.KernelIdeal.HostVals Cert.Gcn
open Idealize.ShloMosaic Idealize.ShloMosaic.ValueIdx

/-- A scale vector laid out as a column. -/
def dcol (dv : FVec Ideal S50000 .f32) : FVec Ideal S50000x1 .f32 := broadcastInDim S50000x1 ![0] bcast_S50000_S50000x1_0 dv

/-- The column's entry n is the vector's entry n. -/
theorem dcol_apply (dv : FVec Ideal S50000 .f32) (n : Fin 50000) : dcol dv (ix2 n (0 : Fin 1)) = nodeScale dv n := by
  unfold dcol nodeScale
  refine broadcastInDim_apply ![0] bcast_S50000_S50000x1_0 dv (ix2 n (0 : Fin 1)) (ix1 n) fun ax => ?_
  match ax with
  | ⟨0, _⟩ => show n.val = if (50000 : ℕ) = 1 then 0 else n.val; rw [if_neg (by decide)]

/-- A bias laid out as a row reads its entry k at (0, k). -/
theorem row64_apply (b : FVec Ideal S64 .f32) (k : Fin 64) : row64 b (ix2 (0 : Fin 1) k) = vec b k := by
  unfold row64 vec
  refine shapeCast_apply b shapeCasts_S64_S1x64 _ _ ?_
  rw [Shape.rowMajor_val_two, Shape.rowMajor_val_one]
  show k.val = (0 : Fin 1).val * 64 + k.val
  simp
theorem row16_apply (b : FVec Ideal S16 .f32) (k : Fin 16) : row16 b (ix2 (0 : Fin 1) k) = vec b k := by
  unfold row16 vec
  refine shapeCast_apply b shapeCasts_S16_S1x16 _ _ ?_
  rw [Shape.rowMajor_val_two, Shape.rowMajor_val_one]
  show k.val = (0 : Fin 1).val * 16 + k.val
  simp

/-- An aggregation at (n, k): zero plus the sum over the edges landing on n of the table at the edge's source node. -/
theorem agg64_apply (H : FVec Ideal S50000x64 .f32) (S3 S6 : IVec S850000 32) (n : Fin 50000) (k : Fin 64) :
    agg64 H S3 S6 (ix2 n k) = 0 + ∑ e : Fin 850000, if edgeHits (col S6) e n then H (ix2 (edgeRow (col (wrap S3)) e) k) else 0 := by
  unfold agg64
  refine (Cert.RowScatterAdd.host_scatterAdd_apply (N := 50000) (E := 850000) (C := 64)
    scatter_S50000x64_S850000x1_S850000x64_1_0_0_1.wf _ (col S6) _ n k).trans ?_
  refine congrArg₂ (fun a b : EReal => a + b) Ideal.ofBits_zero_f32 (Finset.sum_congr rfl fun e _ => ?_)
  refine if_congr Iff.rfl ?_ rfl
  exact Cert.RowGather.gather_apply (N := 50000) (E := 850000) (C := 64) (by decide)
    gather_S50000x64_S850000x1_S850000x64_1_0_n_n_0_1_164.wf H (col (wrap S3)) e k
theorem agg16_apply (H : FVec Ideal S50000x16 .f32) (S3 S6 : IVec S850000 32) (n : Fin 50000) (k : Fin 16) :
    agg16 H S3 S6 (ix2 n k) = 0 + ∑ e : Fin 850000, if edgeHits (col S6) e n then H (ix2 (edgeRow (col (wrap S3)) e) k) else 0 := by
  unfold agg16
  refine (Cert.RowScatterAdd.host_scatterAdd_apply (N := 50000) (E := 850000) (C := 16)
    scatter_S50000x16_S850000x1_S850000x16_1_0_0_1.wf _ (col S6) _ n k).trans ?_
  refine congrArg₂ (fun a b : EReal => a + b) Ideal.ofBits_zero_f32 (Finset.sum_congr rfl fun e _ => ?_)
  refine if_congr Iff.rfl ?_ rfl
  exact Cert.RowGather.gather_apply (N := 50000) (E := 850000) (C := 16) (by decide)
    gather_S50000x16_S850000x1_S850000x16_1_0_n_n_0_1_116.wf H (col (wrap S3)) e k

/-- A post-scaled, biased aggregation of a table whose entries are features times the node's scale is the layer `layerK`. -/
theorem layer_of {C : ℕ} (dinv : Fin 50000 → EReal) (src : Fin 850000 → Fin 50000) (hit : Fin 850000 → Fin 50000 → Prop)
    [∀ e n, Decidable (hit e n)] (Hf h : Fin 50000 → Fin C → EReal) (hH : ∀ n c, Hf n c = h n c * dinv n)
    (A : Fin 50000 → Fin C → EReal) (hA : ∀ n c, A n c = 0 + ∑ e : Fin 850000, if hit e n then Hf (src e) c else 0)
    (b : Fin C → EReal) (n : Fin 50000) (c : Fin C) :
    dinv n * A n c + b c = layerK dinv src hit h b n c := by
  unfold layerK
  rw [hA]
  refine congrArg (fun s : EReal => dinv n * (0 + s) + b c) (Finset.sum_congr rfl fun e _ => ?_)
  rw [hH]

/-- THE NEST AT (n, c) is the network with the destination's scale applied once per node. -/
theorem nest_apply (X : FVec Ideal S50000x64 .f32) (W1 : FVec Ideal S64x64 .f32) (dv : FVec Ideal S50000 .f32) (S3 S6 : IVec S850000 32)
    (B1 : FVec Ideal S64 .f32) (W2 : FVec Ideal S64x16 .f32) (B2 : FVec Ideal S16 .f32) (n : Fin 50000) (c : Fin 16) :
    Region2.G (agg16 (Region1.G (agg64 (Region0.G X W1 (dcol dv)) S3 S6) (dcol dv) (row64 B1) W2) S3 S6) (dcol dv) (row16 B2) (ix2 n c)
      = gcnK (nodeScale dv) (edgeRow (col (wrap S3))) (edgeHits (col S6)) (mat X) (mat W1) (vec B1) (mat W2) (vec B2) n c := by
  -- the first region's table: (x·W1)(n, k) · dinv(n)
  have hH1 : ∀ n' k, Region0.G X W1 (dcol dv) (ix2 n' k) = lin (mat X) (mat W1) n' k * nodeScale dv n' := fun n' k =>
    congrArg (fun d : EReal => (∑ k' : Fin 64, X (ix2 n' k') * W1 (ix2 k' k)) * d) (dcol_apply dv n')
  -- the first layer
  have hL1 : ∀ n' k, dcol dv (ix2 n' (0 : Fin 1)) * agg64 (Region0.G X W1 (dcol dv)) S3 S6 (ix2 n' k) + row64 B1 (ix2 (0 : Fin 1) k)
      = layerK (nodeScale dv) (edgeRow (col (wrap S3))) (edgeHits (col S6)) (lin (mat X) (mat W1)) (vec B1) n' k := fun n' k => by
    rw [dcol_apply, row64_apply]
    exact layer_of (nodeScale dv) (edgeRow (col (wrap S3))) (edgeHits (col S6))
      (fun n c => Region0.G X W1 (dcol dv) (ix2 n c)) (lin (mat X) (mat W1)) hH1
      (fun n c => agg64 (Region0.G X W1 (dcol dv)) S3 S6 (ix2 n c)) (fun n c => agg64_apply _ S3 S6 n c) (vec B1) n' k
  -- the second region's table: (relu(layer 1)·W2)(n, c) · dinv(n)
  have hH2 : ∀ n' c', Region1.G (agg64 (Region0.G X W1 (dcol dv)) S3 S6) (dcol dv) (row64 B1) W2 (ix2 n' c')
      = lin (fun n'' k => relu (layerK (nodeScale dv) (edgeRow (col (wrap S3))) (edgeHits (col S6)) (lin (mat X) (mat W1)) (vec B1) n'' k)) (mat W2) n' c'
          * nodeScale dv n' := fun n' c' =>
    congrArg₂ (fun a b : EReal => a * b)
      (Finset.sum_congr rfl fun k _ => congrArg (fun v : EReal => relu v * W2 (ix2 k c')) (hL1 n' k)) (dcol_apply dv n')
  -- the second layer
  have hL2 : ∀ c', dcol dv (ix2 n (0 : Fin 1))
        * agg16 (Region1.G (agg64 (Region0.G X W1 (dcol dv)) S3 S6) (dcol dv) (row64 B1) W2) S3 S6 (ix2 n c') + row16 B2 (ix2 (0 : Fin 1) c')
      = layerK (nodeScale dv) (edgeRow (col (wrap S3))) (edgeHits (col S6))
          (lin (fun n'' k => relu (layerK (nodeScale dv) (edgeRow (col (wrap S3))) (edgeHits (col S6)) (lin (mat X) (mat W1)) (vec B1) n'' k)) (mat W2))
          (vec B2) n c' := fun c' => by
    rw [dcol_apply, row16_apply]
    exact layer_of (nodeScale dv) (edgeRow (col (wrap S3))) (edgeHits (col S6))
      (fun n c => Region1.G (agg64 (Region0.G X W1 (dcol dv)) S3 S6) (dcol dv) (row64 B1) W2 (ix2 n c)) _ hH2
      (fun n c => agg16 (Region1.G (agg64 (Region0.G X W1 (dcol dv)) S3 S6) (dcol dv) (row64 B1) W2) S3 S6 (ix2 n c))
      (fun n c => agg16_apply _ S3 S6 n c) (vec B2) n c'
  -- the third region: the log-softmax of the second layer's row
  exact congrArg (fun z : Fin 16 → EReal => logSoftmaxRow z c) (funext hL2)

end Cert.KernelIdeal.KValue

end
-- ==== Proof.KernelEntry.lean ====
/-
  The contents the first region is entered with, and the kernel's result at an entry.

  Before the first region the host builds the edges' source and destination node numbers (two slices of the edge array, each
  flattened and joined with the self-loops), the degree of every node (ones scatter-added at the destinations), the node
  scale (its inverse square root where the degree is positive, zero elsewhere) and that scale laid out as a column; it writes
  none of the arguments. These are the same pure terms of the edge array as the reference's stages of the same names: both
  programs spell them with the same operations. So the kernel's result buffer, read at (n, c), is the network `gcnK` over the
  reference's own graph data — its node scale, its wrapped source column, its destination column — and the arguments.
-/
import proofs.«169217_j1168231104918_2_alg».proof.Proof.KernelValue
import proofs.«169217_j1168231104918_2_alg».proof.Proof.RefRead
import Idealize.ShloMosaic.Lib.StableHlo.Run

set_option maxRecDepth 16384

noncomputable section

namespace Cert.KernelIdeal.Entry

open Cert.KernelIdeal Cert.KernelIdeal.Gen Cert.KernelIdeal.HostVals Cert.KernelIdeal.KValue Cert.Gcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments are as launched -/

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results
theorem W3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  after_results
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results

/-! ## The graph data are the reference's stages of the edge array -/

theorem W3_v3 (c : Dev nD) : W3 m ρ c (Proc.devRef .tc main_v3)
    = Cert.ReferenceIdeal.ReadP.val_main_v3 (F := Ideal) (m ((c : Thread nD τ).loc main_arg1)) := by
  show after hostOps0_2 (after hostOps0_1 (after hostOps0 (W0 m ρ c))) (Proc.devRef .tc main_v3) = _
  after_results; rfl
theorem W3_v6 (c : Dev nD) : W3 m ρ c (Proc.devRef .tc main_v6)
    = Cert.ReferenceIdeal.ReadP.val_main_v6 (F := Ideal) (m ((c : Thread nD τ).loc main_arg1)) := by
  show after hostOps0_2 (after hostOps0_1 (after hostOps0 (W0 m ρ c))) (Proc.devRef .tc main_v6) = _
  after_results; rfl
/-- The called function that picks, per node, the inverse square root where the degree is positive and zero elsewhere:
    from any contents, its result is the select of the three buffers it reads. -/
def pick (c : IVec S50000 1) (a : FVec Ideal S50000 .f32) (z : FVec Ideal S_ .f32) : FVec Ideal S50000 .f32 :=
  select c a (broadcastInDim S50000 ![] bcast_S_S50000 (id z))

theorem where_v14 (W : Valuation τ sig (Elt Ideal)) :
    after (hostOps0_1 (F := Ideal)) W (Proc.devRef .tc main_v14)
      = pick (W (Proc.devRef .tc main_v12)) (W (Proc.devRef .tc main_v13)) (W (Proc.devRef .tc main_cst_2)) := by
  after_results_simp
  rfl
theorem col_v15 (W : Valuation τ sig (Elt Ideal)) :
    after (hostOps0_2 (F := Ideal)) W (Proc.devRef .tc main_v15)
      = broadcastInDim S50000x1 ![0] bcast_S50000_S50000x1_0 (W (Proc.devRef .tc main_v14)) := by
  after_results

/-- The three buffers the called function reads are the reference's stages. -/
theorem W1_v12 (c : Dev nD) : W1 m ρ c (Proc.devRef .tc main_v12)
    = Cert.ReferenceIdeal.ReadP.val_main_v13 (F := Ideal) (m ((c : Thread nD τ).loc main_arg1)) := by
  show after hostOps0 (W0 m ρ c) (Proc.devRef .tc main_v12) = _
  after_results; rfl
theorem W1_v13 (c : Dev nD) : W1 m ρ c (Proc.devRef .tc main_v13)
    = Cert.ReferenceIdeal.ReadP.val_main_v14 (F := Ideal) (m ((c : Thread nD τ).loc main_arg1)) := by
  show after hostOps0 (W0 m ρ c) (Proc.devRef .tc main_v13) = _
  after_results; rfl
theorem W1_cst_2 (c : Dev nD) : W1 m ρ c (Proc.devRef .tc main_cst_2) = Cert.ReferenceIdeal.ReadP.val_main_cst_2 (F := Ideal) := by
  show after hostOps0 (W0 m ρ c) (Proc.devRef .tc main_cst_2) = _
  after_results; rfl

/-- The pick of the reference's three stages is the reference's node scale. -/
theorem pick_stages (x1 : IVec S2x800000 32) :
    pick (Cert.ReferenceIdeal.ReadP.val_main_v13 (F := Ideal) x1) (Cert.ReferenceIdeal.ReadP.val_main_v14 (F := Ideal) x1)
        (Cert.ReferenceIdeal.ReadP.val_main_cst_2 (F := Ideal))
      = Cert.ReferenceIdeal.ReadP.val_main_v15 (F := Ideal) x1 := rfl

theorem W3_v15 (c : Dev nD) : W3 m ρ c (Proc.devRef .tc main_v15)
    = dcol (Cert.ReferenceIdeal.ReadP.val_main_v15 (F := Ideal) (m ((c : Thread nD τ).loc main_arg1))) := by
  have e3 : W3 m ρ c (Proc.devRef .tc main_v15)
      = broadcastInDim S50000x1 ![0] bcast_S50000_S50000x1_0 (W2 m ρ c (Proc.devRef .tc main_v14)) := col_v15 (W2 m ρ c)
  have e2 : W2 m ρ c (Proc.devRef .tc main_v14)
      = pick (W1 m ρ c (Proc.devRef .tc main_v12)) (W1 m ρ c (Proc.devRef .tc main_v13)) (W1 m ρ c (Proc.devRef .tc main_cst_2)) :=
    where_v14 (W1 m ρ c)
  rw [e3, e2, W1_v12, W1_v13, W1_cst_2, pick_stages]
  rfl

/-- The wrapped source column is the reference's. -/
theorem col_wrap_v3 (x1 : IVec S2x800000 32) :
    col (wrap (Cert.ReferenceIdeal.ReadP.val_main_v3 (F := Ideal) x1)) = Cert.ReferenceIdeal.ReadP.val_main_v21 (F := Ideal) x1 := rfl
/-- The destination column is the reference's. -/
theorem col_v6 (x1 : IVec S2x800000 32) :
    col (Cert.ReferenceIdeal.ReadP.val_main_v6 (F := Ideal) x1) = Cert.ReferenceIdeal.ReadP.val_main_v10 (F := Ideal) x1 := rfl

/-! ## The result at an entry -/

/-- The kernel's result buffer at (n, c') is the network `gcnK` of the arguments over the reference's graph data. -/
theorem result_apply (c : Dev nD) (n : Fin 50000) (c' : Fin 16) :
    W8 m ρ c (Proc.devRef .tc main_v40) (ix2 n c')
      = gcnK (nodeScale (Cert.ReferenceIdeal.ReadP.val_main_v15 (F := Ideal) (m ((c : Thread nD τ).loc main_arg1))))
          (edgeRow (Cert.ReferenceIdeal.ReadP.val_main_v21 (F := Ideal) (m ((c : Thread nD τ).loc main_arg1))))
          (edgeHits (Cert.ReferenceIdeal.ReadP.val_main_v10 (F := Ideal) (m ((c : Thread nD τ).loc main_arg1))))
          (mat (m ((c : Thread nD τ).loc main_arg0))) (mat (m ((c : Thread nD τ).loc main_arg2))) (vec (m ((c : Thread nD τ).loc main_arg3)))
          (mat (m ((c : Thread nD τ).loc main_arg4))) (vec (m ((c : Thread nD τ).loc main_arg5))) n c' := by
  rw [result_nest m ρ c, W3_arg0, W3_arg2, W3_arg3, W3_arg4, W3_arg5, W3_v3, W3_v6, W3_v15]
  refine (nest_apply _ _ _ _ _ _ _ _ n c').trans ?_
  rw [col_wrap_v3, col_v6]

end Cert.KernelIdeal.Entry

end
-- ==== Proof.RefRunValue.lean ====
/-
  The idealized reference's run, with its result at the staged value.

  @main is a line of 131 host operations. Every weakly fair execution of such a line terminates with each buffer at what the
  operations, applied in order from the launch contents, leave in it; what is left in the result buffer is read here a
  segment of the line at a time, carrying from cut to cut the few buffers later segments read:
  * operations 1–7 build the edges' source and destination node numbers;
  * 8–18 the first weight product, and the degree's comparison with zero and its inverse square root;
  * 19–22 are a called function picking the node scale from those two (`pickFn`);
  * 23–60 the first layer up to its bias; 61–63 a called function taking the positive part (`reluFn`);
  * 64–74 the second weight product and the degree's two stages again; 75–78 the pick again;
  * 79–116 the second layer up to its bias; 117–131 a called function taking the log-softmax of the rows (`lsmFn`).
  A called function's operations move every value between its buffer's own type and the tensor type it is stated at (the
  same type, once the buffer is a literal); such a segment is read from ARBITRARY contents, as its small function of the
  buffers it reads, and the plain segments are read against the stages `val_…` from contents whose live buffers hold their
  stages. Each step then compares terms of the same shape, operation by operation.
-/
import proofs.«169217_j1168231104918_2_alg».proof.Proof.RefRead
import Idealize.ShloMosaic.Lib.StableHlo.Run

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- A line run after another is their concatenation run as one. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The segments -/

abbrev segP : List (HloOp τ sig (Elt Ideal)) := List.take 7 (ops (F := Ideal))
abbrev segA : List (HloOp τ sig (Elt Ideal)) := List.take 11 (List.drop 7 (ops (F := Ideal)))
abbrev segW : List (HloOp τ sig (Elt Ideal)) := List.take 4 (List.drop 18 (ops (F := Ideal)))
abbrev segB : List (HloOp τ sig (Elt Ideal)) := List.take 38 (List.drop 22 (ops (F := Ideal)))
abbrev segR : List (HloOp τ sig (Elt Ideal)) := List.take 3 (List.drop 60 (ops (F := Ideal)))
abbrev segC : List (HloOp τ sig (Elt Ideal)) := List.take 11 (List.drop 63 (ops (F := Ideal)))
abbrev segX : List (HloOp τ sig (Elt Ideal)) := List.take 4 (List.drop 74 (ops (F := Ideal)))
abbrev segD : List (HloOp τ sig (Elt Ideal)) := List.take 38 (List.drop 78 (ops (F := Ideal)))
abbrev segL1 : List (HloOp τ sig (Elt Ideal)) := List.take 2 (List.drop 116 (ops (F := Ideal)))
abbrev segL2 : List (HloOp τ sig (Elt Ideal)) := List.take 5 (List.drop 118 (ops (F := Ideal)))
abbrev segL3 : List (HloOp τ sig (Elt Ideal)) := List.take 2 (List.drop 123 (ops (F := Ideal)))
abbrev segL4 : List (HloOp τ sig (Elt Ideal)) := List.take 2 (List.drop 125 (ops (F := Ideal)))
abbrev segL5 : List (HloOp τ sig (Elt Ideal)) := List.drop 127 (ops (F := Ideal))

set_option maxRecDepth 100000 in
theorem ops_split : (ops (F := Ideal)) = segP ++ (segA ++ (segW ++ (segB ++ (segR ++ (segC ++ (segX ++ (segD ++ (segL1 ++ (segL2 ++ (segL3 ++ (segL4 ++ segL5))))))))))) := rfl

/-- Unfold a segment to its operations and read each one's result. -/
local macro "seg_run" : tactic =>
  `(tactic| (simp only [segP, segA, segW, segB, segR, segC, segX, segD, segL1, segL2, segL3, segL4, segL5, ops, List.drop_succ_cons, List.drop_zero,
      List.take_succ_cons, List.take_zero]
             after_results_simp))

/-! ## The called functions, as functions of what they read -/

/-- Per node: the second value where the first (a one-bit word) is one, zero elsewhere. -/
def pickFn (c : (⟨S50000, .i1⟩ : BufTy).Contents (Elt Ideal)) (a : (⟨S50000, .f32⟩ : BufTy).Contents (Elt Ideal)) :
    (⟨S50000, .f32⟩ : BufTy).Contents (Elt Ideal) :=
  select c a (broadcastInDim S50000 ![] bcast_S_S50000 (id (constant (F := Ideal) S_ .f32 0x00000000#32)))

/-- The positive part, entry by entry. -/
def reluFn (a : (⟨S50000x64, .f32⟩ : BufTy).Contents (Elt Ideal)) : (⟨S50000x64, .f32⟩ : BufTy).Contents (Elt Ideal) :=
  maximumf a (broadcastInDim S50000x64 ![] bcast_S_S50000x64 (constant (F := Ideal) S_ .f32 0x00000000#32))

/-- The log-softmax of each row, taken after subtracting the row's maximum. -/
def lsmFn (a : (⟨S50000x16, .f32⟩ : BufTy).Contents (Elt Ideal)) : (⟨S50000x16, .f32⟩ : BufTy).Contents (Elt Ideal) :=
  subf
    (subf a (broadcastInDim S50000x16 ![0, 1] bcast_S50000x1_S50000x16_0_1 (broadcastInDim S50000x1 ![0] bcast_S50000_S50000x1_0
      (maximumf (broadcastInDim S50000 ![] bcast_S_S50000 (constant (F := Ideal) S_ .f32 0xFF800000#32))
        (Host.reduce FloatOps.maximumf a (constant (F := Ideal) S_ .f32 0xFF800000#32) reducesTo_S50000x16_S50000_d1 h_S_)))))
    (broadcastInDim S50000x16 ![0, 1] bcast_S50000x1_S50000x16_0_1 (Host.log (broadcastInDim S50000x1 ![0] bcast_S50000_S50000x1_0
      (Host.reduceAdd
        (Host.exp (subf a (broadcastInDim S50000x16 ![0, 1] bcast_S50000x1_S50000x16_0_1 (broadcastInDim S50000x1 ![0] bcast_S50000_S50000x1_0
          (maximumf (broadcastInDim S50000 ![] bcast_S_S50000 (constant (F := Ideal) S_ .f32 0xFF800000#32))
            (Host.reduce FloatOps.maximumf a (constant (F := Ideal) S_ .f32 0xFF800000#32) reducesTo_S50000x16_S50000_d1 h_S_))))))
        (constant (F := Ideal) S_ .f32 0x00000000#32) reducesTo_S50000x16_S50000_d1 h_S_))))

/-- The functions at the stages they are applied to are the next stages. -/
theorem pick_stage (x1 : (⟨S2x800000, .i32⟩ : BufTy).Contents (Elt Ideal)) : pickFn (val_main_v13 (F := Ideal) x1) (val_main_v14 (F := Ideal) x1) = val_main_v15 (F := Ideal) x1 := rfl
theorem pick_stage' (x1 : (⟨S2x800000, .i32⟩ : BufTy).Contents (Elt Ideal)) : pickFn (val_main_v54 (F := Ideal) x1) (val_main_v55 (F := Ideal) x1) = val_main_v56 (F := Ideal) x1 := rfl
theorem relu_stage (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) :
    reluFn (val_main_v46 (F := Ideal) x0 x1 x2 x3) = val_main_v47 (F := Ideal) x0 x1 x2 x3 := rfl
theorem lsm_stage (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) :
    lsmFn (val_main_v87 (F := Ideal) x0 x1 x2 x3 x4 x5) = val_main_v88 (F := Ideal) x0 x1 x2 x3 x4 x5 := rfl

/-! ## Each segment, from any contents -/

-- operations 1–7 leave the arguments alone (the joined arrays are read below, from the launch contents)
theorem P_arg0 (V : Valuation τ sig (Elt Ideal)) : after segP V (Proc.devRef .tc main_arg0) = V (Proc.devRef .tc main_arg0) := by seg_run
theorem P_arg2 (V : Valuation τ sig (Elt Ideal)) : after segP V (Proc.devRef .tc main_arg2) = V (Proc.devRef .tc main_arg2) := by seg_run
theorem P_arg3 (V : Valuation τ sig (Elt Ideal)) : after segP V (Proc.devRef .tc main_arg3) = V (Proc.devRef .tc main_arg3) := by seg_run
theorem P_arg4 (V : Valuation τ sig (Elt Ideal)) : after segP V (Proc.devRef .tc main_arg4) = V (Proc.devRef .tc main_arg4) := by seg_run
theorem P_arg5 (V : Valuation τ sig (Elt Ideal)) : after segP V (Proc.devRef .tc main_arg5) = V (Proc.devRef .tc main_arg5) := by seg_run

-- operations 8–18
theorem A_v7 (V : Valuation τ sig (Elt Ideal)) (x0 : (⟨S50000x64, .f32⟩ : BufTy).Contents (Elt Ideal)) (x2 : (⟨S64x64, .f32⟩ : BufTy).Contents (Elt Ideal)) (h0 : V (Proc.devRef .tc main_arg0) = x0) (h2 : V (Proc.devRef .tc main_arg2) = x2) :
    after segA V (Proc.devRef .tc main_v7) = val_main_v7 (F := Ideal) x0 x2 := by
  seg_run; simp only [h0, h2]; rfl
theorem A_v13 (V : Valuation τ sig (Elt Ideal)) (x1 : (⟨S2x800000, .i32⟩ : BufTy).Contents (Elt Ideal)) (h6 : V (Proc.devRef .tc main_v6) = val_main_v6 (F := Ideal) x1) : after segA V (Proc.devRef .tc main_v13) = val_main_v13 (F := Ideal) x1 := by
  seg_run; simp only [h6]; rfl
theorem A_v14 (V : Valuation τ sig (Elt Ideal)) (x1 : (⟨S2x800000, .i32⟩ : BufTy).Contents (Elt Ideal)) (h6 : V (Proc.devRef .tc main_v6) = val_main_v6 (F := Ideal) x1) : after segA V (Proc.devRef .tc main_v14) = val_main_v14 (F := Ideal) x1 := by
  seg_run; simp only [h6]; rfl
theorem A_v3 (V : Valuation τ sig (Elt Ideal)) : after segA V (Proc.devRef .tc main_v3) = V (Proc.devRef .tc main_v3) := by seg_run
theorem A_v6 (V : Valuation τ sig (Elt Ideal)) : after segA V (Proc.devRef .tc main_v6) = V (Proc.devRef .tc main_v6) := by seg_run
theorem A_arg3 (V : Valuation τ sig (Elt Ideal)) : after segA V (Proc.devRef .tc main_arg3) = V (Proc.devRef .tc main_arg3) := by seg_run
theorem A_arg4 (V : Valuation τ sig (Elt Ideal)) : after segA V (Proc.devRef .tc main_arg4) = V (Proc.devRef .tc main_arg4) := by seg_run
theorem A_arg5 (V : Valuation τ sig (Elt Ideal)) : after segA V (Proc.devRef .tc main_arg5) = V (Proc.devRef .tc main_arg5) := by seg_run

-- operations 19–22: the pick
theorem W_v15 (V : Valuation τ sig (Elt Ideal)) : after segW V (Proc.devRef .tc main_v15) = pickFn (V (Proc.devRef .tc main_v13)) (V (Proc.devRef .tc main_v14)) := by
  seg_run; rfl
theorem W_v3 (V : Valuation τ sig (Elt Ideal)) : after segW V (Proc.devRef .tc main_v3) = V (Proc.devRef .tc main_v3) := by seg_run
theorem W_v6 (V : Valuation τ sig (Elt Ideal)) : after segW V (Proc.devRef .tc main_v6) = V (Proc.devRef .tc main_v6) := by seg_run
theorem W_v7 (V : Valuation τ sig (Elt Ideal)) : after segW V (Proc.devRef .tc main_v7) = V (Proc.devRef .tc main_v7) := by seg_run
theorem W_arg3 (V : Valuation τ sig (Elt Ideal)) : after segW V (Proc.devRef .tc main_arg3) = V (Proc.devRef .tc main_arg3) := by seg_run
theorem W_arg4 (V : Valuation τ sig (Elt Ideal)) : after segW V (Proc.devRef .tc main_arg4) = V (Proc.devRef .tc main_arg4) := by seg_run
theorem W_arg5 (V : Valuation τ sig (Elt Ideal)) : after segW V (Proc.devRef .tc main_arg5) = V (Proc.devRef .tc main_arg5) := by seg_run

-- operations 23–60: the first layer
set_option maxRecDepth 100000 in
set_option maxHeartbeats 4000000 in
theorem B_v46 (V : Valuation τ sig (Elt Ideal)) (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (h3 : V (Proc.devRef .tc main_v3) = val_main_v3 (F := Ideal) x1) (h6 : V (Proc.devRef .tc main_v6) = val_main_v6 (F := Ideal) x1)
    (h15 : V (Proc.devRef .tc main_v15) = val_main_v15 (F := Ideal) x1) (h7 : V (Proc.devRef .tc main_v7) = val_main_v7 (F := Ideal) x0 x2) (ha3 : V (Proc.devRef .tc main_arg3) = x3) :
    after segB V (Proc.devRef .tc main_v46) = val_main_v46 (F := Ideal) x0 x1 x2 x3 := by
  seg_run; simp only [h3, h6, h15, h7, ha3]; rfl
theorem B_v3 (V : Valuation τ sig (Elt Ideal)) : after segB V (Proc.devRef .tc main_v3) = V (Proc.devRef .tc main_v3) := by seg_run
theorem B_v6 (V : Valuation τ sig (Elt Ideal)) : after segB V (Proc.devRef .tc main_v6) = V (Proc.devRef .tc main_v6) := by seg_run
theorem B_arg4 (V : Valuation τ sig (Elt Ideal)) : after segB V (Proc.devRef .tc main_arg4) = V (Proc.devRef .tc main_arg4) := by seg_run
theorem B_arg5 (V : Valuation τ sig (Elt Ideal)) : after segB V (Proc.devRef .tc main_arg5) = V (Proc.devRef .tc main_arg5) := by seg_run

-- operations 61–63: the positive part
theorem R_v47 (V : Valuation τ sig (Elt Ideal)) : after segR V (Proc.devRef .tc main_v47) = reluFn (V (Proc.devRef .tc main_v46)) := by
  seg_run; rfl
theorem R_v3 (V : Valuation τ sig (Elt Ideal)) : after segR V (Proc.devRef .tc main_v3) = V (Proc.devRef .tc main_v3) := by seg_run
theorem R_v6 (V : Valuation τ sig (Elt Ideal)) : after segR V (Proc.devRef .tc main_v6) = V (Proc.devRef .tc main_v6) := by seg_run
theorem R_arg4 (V : Valuation τ sig (Elt Ideal)) : after segR V (Proc.devRef .tc main_arg4) = V (Proc.devRef .tc main_arg4) := by seg_run
theorem R_arg5 (V : Valuation τ sig (Elt Ideal)) : after segR V (Proc.devRef .tc main_arg5) = V (Proc.devRef .tc main_arg5) := by seg_run

-- operations 64–74
theorem C_v48 (V : Valuation τ sig (Elt Ideal)) (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (h47 : V (Proc.devRef .tc main_v47) = val_main_v47 (F := Ideal) x0 x1 x2 x3) (ha4 : V (Proc.devRef .tc main_arg4) = x4) :
    after segC V (Proc.devRef .tc main_v48) = val_main_v48 (F := Ideal) x0 x1 x2 x3 x4 := by
  seg_run; simp only [h47, ha4]; rfl
theorem C_v54 (V : Valuation τ sig (Elt Ideal)) (x1 : (⟨S2x800000, .i32⟩ : BufTy).Contents (Elt Ideal)) (h6 : V (Proc.devRef .tc main_v6) = val_main_v6 (F := Ideal) x1) : after segC V (Proc.devRef .tc main_v54) = val_main_v54 (F := Ideal) x1 := by
  seg_run; simp only [h6]; rfl
theorem C_v55 (V : Valuation τ sig (Elt Ideal)) (x1 : (⟨S2x800000, .i32⟩ : BufTy).Contents (Elt Ideal)) (h6 : V (Proc.devRef .tc main_v6) = val_main_v6 (F := Ideal) x1) : after segC V (Proc.devRef .tc main_v55) = val_main_v55 (F := Ideal) x1 := by
  seg_run; simp only [h6]; rfl
theorem C_v3 (V : Valuation τ sig (Elt Ideal)) : after segC V (Proc.devRef .tc main_v3) = V (Proc.devRef .tc main_v3) := by seg_run
theorem C_v6 (V : Valuation τ sig (Elt Ideal)) : after segC V (Proc.devRef .tc main_v6) = V (Proc.devRef .tc main_v6) := by seg_run
theorem C_arg5 (V : Valuation τ sig (Elt Ideal)) : after segC V (Proc.devRef .tc main_arg5) = V (Proc.devRef .tc main_arg5) := by seg_run

-- operations 75–78: the pick again
theorem X_v56 (V : Valuation τ sig (Elt Ideal)) : after segX V (Proc.devRef .tc main_v56) = pickFn (V (Proc.devRef .tc main_v54)) (V (Proc.devRef .tc main_v55)) := by
  seg_run; rfl
theorem X_v3 (V : Valuation τ sig (Elt Ideal)) : after segX V (Proc.devRef .tc main_v3) = V (Proc.devRef .tc main_v3) := by seg_run
theorem X_v6 (V : Valuation τ sig (Elt Ideal)) : after segX V (Proc.devRef .tc main_v6) = V (Proc.devRef .tc main_v6) := by seg_run
theorem X_v48 (V : Valuation τ sig (Elt Ideal)) : after segX V (Proc.devRef .tc main_v48) = V (Proc.devRef .tc main_v48) := by seg_run
theorem X_arg5 (V : Valuation τ sig (Elt Ideal)) : after segX V (Proc.devRef .tc main_arg5) = V (Proc.devRef .tc main_arg5) := by seg_run

-- operations 79–116: the second layer
set_option maxRecDepth 100000 in
set_option maxHeartbeats 4000000 in
theorem D_v87 (V : Valuation τ sig (Elt Ideal)) (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (h3 : V (Proc.devRef .tc main_v3) = val_main_v3 (F := Ideal) x1) (h6 : V (Proc.devRef .tc main_v6) = val_main_v6 (F := Ideal) x1)
    (h56 : V (Proc.devRef .tc main_v56) = val_main_v56 (F := Ideal) x1) (h48 : V (Proc.devRef .tc main_v48) = val_main_v48 (F := Ideal) x0 x1 x2 x3 x4) (ha5 : V (Proc.devRef .tc main_arg5) = x5) :
    after segD V (Proc.devRef .tc main_v87) = val_main_v87 (F := Ideal) x0 x1 x2 x3 x4 x5 := by
  seg_run; simp only [h3, h6, h56, h48, ha5]; rfl
-- operations 117–131: the log-softmax, in five steps
/-- A band minus a band, entry by entry. -/
def shiftFn (a b : FVec Ideal S50000x16 .f32) : FVec Ideal S50000x16 .f32 := subf a b
/-- The exponential, entry by entry. -/
def expFn (a : FVec Ideal S50000x16 .f32) : FVec Ideal S50000x16 .f32 := Host.exp a
/-- A band minus the logarithm of a per-row value spread over the row. -/
def outFn (a : FVec Ideal S50000x16 .f32) (s : FVec Ideal S50000 .f32) : FVec Ideal S50000x16 .f32 :=
  subf a (broadcastInDim S50000x16 ![0, 1] bcast_S50000x1_S50000x16_0_1 (Host.log (broadcastInDim S50000x1 ![0] bcast_S50000_S50000x1_0 s)))
/-- The rows' maxima, from −∞. -/
theorem L1_v0 (V : Valuation τ sig (Elt Ideal)) : after segL1 V (Proc.devRef .tc main_call3_v0)
    = Host.reduce FloatOps.maximumf (V (Proc.devRef .tc main_v87) : (⟨S50000x16, .f32⟩ : BufTy).Contents (Elt Ideal)) (constant (F := Ideal) S_ .f32 0xFF800000#32) reducesTo_S50000x16_S50000_d1 h_S_ := by
  seg_run
  refine (cast_eq _ _).trans ?_
  rfl
theorem L1_v87 (V : Valuation τ sig (Elt Ideal)) : after segL1 V (Proc.devRef .tc main_v87) = V (Proc.devRef .tc main_v87) := by seg_run
/-- The maxima (against −∞ once more) spread back over the rows. -/
theorem L2_v4 (V : Valuation τ sig (Elt Ideal)) : after segL2 V (Proc.devRef .tc main_call3_v4)
    = broadcastInDim S50000x16 ![0, 1] bcast_S50000x1_S50000x16_0_1 (broadcastInDim S50000x1 ![0] bcast_S50000_S50000x1_0
        (maximumf (broadcastInDim S50000 ![] bcast_S_S50000 (constant (F := Ideal) S_ .f32 0xFF800000#32)) (V (Proc.devRef .tc main_call3_v0)))) := by
  seg_run; rfl
theorem L2_v87 (V : Valuation τ sig (Elt Ideal)) : after segL2 V (Proc.devRef .tc main_v87) = V (Proc.devRef .tc main_v87) := by seg_run
/-- The shifted rows and their exponentials. -/
theorem L3_v5 (V : Valuation τ sig (Elt Ideal)) : after segL3 V (Proc.devRef .tc main_call3_v5) = shiftFn (V (Proc.devRef .tc main_v87)) (V (Proc.devRef .tc main_call3_v4)) := by
  seg_run; rfl
theorem L3_v6 (V : Valuation τ sig (Elt Ideal)) : after segL3 V (Proc.devRef .tc main_call3_v6) = expFn (shiftFn (V (Proc.devRef .tc main_v87)) (V (Proc.devRef .tc main_call3_v4))) := by
  seg_run; rfl
/-- The rows' sums of exponentials, from zero. -/
theorem L4_v7 (V : Valuation τ sig (Elt Ideal)) : after segL4 V (Proc.devRef .tc main_call3_v7)
    = Host.reduceAdd (V (Proc.devRef .tc main_call3_v6) : (⟨S50000x16, .f32⟩ : BufTy).Contents (Elt Ideal)) (constant (F := Ideal) S_ .f32 0x00000000#32) reducesTo_S50000x16_S50000_d1 h_S_ := by
  seg_run; rfl
theorem L4_call3_v5 (V : Valuation τ sig (Elt Ideal)) : after segL4 V (Proc.devRef .tc main_call3_v5) = V (Proc.devRef .tc main_call3_v5) := by seg_run
/-- The shifted rows minus the logarithms of the sums, spread back. -/
theorem L5_v88 (V : Valuation τ sig (Elt Ideal)) : after segL5 V (Proc.devRef .tc main_v88) = outFn (V (Proc.devRef .tc main_call3_v5)) (V (Proc.devRef .tc main_call3_v7)) := by
  seg_run; rfl

/-- The five steps in a row are the log-softmax of the buffer they start from. -/
theorem L_v88 (V : Valuation τ sig (Elt Ideal)) :
    after segL5 (after segL4 (after segL3 (after segL2 (after segL1 V)))) (Proc.devRef .tc main_v88) = lsmFn (V (Proc.devRef .tc main_v87)) := by
  rw [L5_v88, L4_v7, L4_call3_v5, L3_v6, L3_v5, L2_v4, L2_v87, L1_v0, L1_v87]
  rfl

/-! ## The whole line -/

variable (m : (ℓ : Loc nD τ sig) → Buf (Elt Ideal) ℓ)

/-- After operations 1–7 the edges' source and destination node numbers hold their stages of the edge array. -/
theorem P_v3 (c : Dev nD) : after segP (launchContents m c) (Proc.devRef .tc main_v3) = val_main_v3 (F := Ideal) (m ((c.tc : Thread nD τ).loc main_arg1)) := by
  simp only [segP, ops, List.take_succ_cons, List.take_zero]
  after_results; rfl
theorem P_v6 (c : Dev nD) : after segP (launchContents m c) (Proc.devRef .tc main_v6) = val_main_v6 (F := Ideal) (m ((c.tc : Thread nD τ).loc main_arg1)) := by
  simp only [segP, ops, List.take_succ_cons, List.take_zero]
  after_results; rfl

/-- The whole line leaves the result buffer at the last stage of the arguments. -/
theorem result_term (c : Dev nD) :
    after (ops (F := Ideal)) (launchContents m c) (Proc.devRef .tc main_v88)
      = val_main_v88 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  rw [ops_split]
  simp only [after_append]
  -- after operations 1–7
  have p3 := P_v3 m c
  have p6 := P_v6 m c
  have p0 : after segP (launchContents m c) (Proc.devRef .tc main_arg0) = (m ((c.tc : Thread nD τ).loc main_arg0)) := P_arg0 _
  have p2 : after segP (launchContents m c) (Proc.devRef .tc main_arg2) = (m ((c.tc : Thread nD τ).loc main_arg2)) := P_arg2 _
  have pa3 : after segP (launchContents m c) (Proc.devRef .tc main_arg3) = (m ((c.tc : Thread nD τ).loc main_arg3)) := P_arg3 _
  have pa4 : after segP (launchContents m c) (Proc.devRef .tc main_arg4) = (m ((c.tc : Thread nD τ).loc main_arg4)) := P_arg4 _
  have pa5 : after segP (launchContents m c) (Proc.devRef .tc main_arg5) = (m ((c.tc : Thread nD τ).loc main_arg5)) := P_arg5 _
  generalize after segP (launchContents m c) = V1 at p3 p6 p0 p2 pa3 pa4 pa5 ⊢
  -- after 8–18
  have a7 := A_v7 V1 _ _ p0 p2
  have a13 := A_v13 V1 _ p6
  have a14 := A_v14 V1 _ p6
  have a3 := (A_v3 V1).trans p3
  have a6 := (A_v6 V1).trans p6
  have aa3 := (A_arg3 V1).trans pa3
  have aa4 := (A_arg4 V1).trans pa4
  have aa5 := (A_arg5 V1).trans pa5
  generalize after segA V1 = V2 at a7 a13 a14 a3 a6 aa3 aa4 aa5 ⊢
  -- after 19–22
  have w15 := ((W_v15 V2).trans (congrArg₂ pickFn a13 a14)).trans (pick_stage _)
  have w3 := (W_v3 V2).trans a3
  have w6 := (W_v6 V2).trans a6
  have w7 := (W_v7 V2).trans a7
  have wa3 := (W_arg3 V2).trans aa3
  have wa4 := (W_arg4 V2).trans aa4
  have wa5 := (W_arg5 V2).trans aa5
  generalize after segW V2 = V3 at w15 w3 w6 w7 wa3 wa4 wa5 ⊢
  -- after 23–60
  have b46 := B_v46 V3 _ _ _ _ w3 w6 w15 w7 wa3
  have b3 := (B_v3 V3).trans w3
  have b6 := (B_v6 V3).trans w6
  have ba4 := (B_arg4 V3).trans wa4
  have ba5 := (B_arg5 V3).trans wa5
  generalize after segB V3 = V4 at b46 b3 b6 ba4 ba5 ⊢
  -- after 61–63
  have r47 := ((R_v47 V4).trans (congrArg reluFn b46)).trans (relu_stage _ _ _ _)
  have r3 := (R_v3 V4).trans b3
  have r6 := (R_v6 V4).trans b6
  have ra4 := (R_arg4 V4).trans ba4
  have ra5 := (R_arg5 V4).trans ba5
  generalize after segR V4 = V5 at r47 r3 r6 ra4 ra5 ⊢
  -- after 64–74
  have c48 := C_v48 V5 _ _ _ _ _ r47 ra4
  have c54 := C_v54 V5 _ r6
  have c55 := C_v55 V5 _ r6
  have c3 := (C_v3 V5).trans r3
  have c6 := (C_v6 V5).trans r6
  have ca5 := (C_arg5 V5).trans ra5
  generalize after segC V5 = V6 at c48 c54 c55 c3 c6 ca5 ⊢
  -- after 75–78
  have x56 := ((X_v56 V6).trans (congrArg₂ pickFn c54 c55)).trans (pick_stage' _)
  have x3 := (X_v3 V6).trans c3
  have x6 := (X_v6 V6).trans c6
  have x48 := (X_v48 V6).trans c48
  have xa5 := (X_arg5 V6).trans ca5
  generalize after segX V6 = V7 at x56 x3 x6 x48 xa5 ⊢
  -- after 79–116, and the last segment
  have d87 := D_v87 V7 _ _ _ _ _ _ x3 x6 x56 x48 xa5
  exact ((L_v88 _).trans (congrArg lsmFn d87)).trans (lsm_stage _ _ _ _ _ _)

set_option maxRecDepth 8192 in
set_option maxHeartbeats 4000000 in
/-- An argument buffer ends as launched: no operation writes it. -/
theorem kept (c : Dev nD) :
    after (ops (F := Ideal)) (launchContents m c) (Proc.devRef .tc main_arg0) = (m ((c.tc : Thread nD τ).loc main_arg0))
    ∧ after (ops (F := Ideal)) (launchContents m c) (Proc.devRef .tc main_arg1) = (m ((c.tc : Thread nD τ).loc main_arg1))
    ∧ after (ops (F := Ideal)) (launchContents m c) (Proc.devRef .tc main_arg2) = (m ((c.tc : Thread nD τ).loc main_arg2))
    ∧ after (ops (F := Ideal)) (launchContents m c) (Proc.devRef .tc main_arg3) = (m ((c.tc : Thread nD τ).loc main_arg3))
    ∧ after (ops (F := Ideal)) (launchContents m c) (Proc.devRef .tc main_arg4) = (m ((c.tc : Thread nD τ).loc main_arg4))
    ∧ after (ops (F := Ideal)) (launchContents m c) (Proc.devRef .tc main_arg5) = (m ((c.tc : Thread nD τ).loc main_arg5)) :=
  ⟨by after_results_simp <;> rfl, by after_results_simp <;> rfl, by after_results_simp <;> rfl, by after_results_simp <;> rfl,
    by after_results_simp <;> rfl, by after_results_simp <;> rfl⟩

/-- On every device, from any memory with zero counters: every weakly fair execution of @main terminates with the result
    buffer at the last stage of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v88)
          = val_main_v88 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_term m c),
      (h c main_arg0).trans (kept m c).1,
      (h c main_arg1).trans (kept m c).2.1,
      (h c main_arg2).trans (kept m c).2.2.1,
      (h c main_arg3).trans (kept m c).2.2.2.1,
      (h c main_arg4).trans (kept m c).2.2.2.2.1,
      (h c main_arg5).trans (kept m c).2.2.2.2.2⟩)
    (run_seq scopedRefs_eq scopedSems_eq defs main (fun _ => ops) main_eq (fun _ => ops_sub) m ρ)

end Cert.ReferenceIdeal.RunValue

end
-- ==== Proof.LibVecGather.lean ====
/-
  THE VECTOR GATHER READ AT AN INDEX. For a flat table `T : [N]` and an integer array of `E` positions, the array
  `T[idx] : [E]` is `stablehlo.gather` with offset_dims [], collapsed_slice_dims [0], start_index_map [0],
  index_vector_dim 1 and slice_sizes [1] over the positions as `[E, 1]`. Its element `e` is the table's element
  `row e`, where `row e` is the `e`-th position read as a signed integer and clamped into `[0, N − 1]` (a gather
  clamps every start index so that its slice fits). The position `row e` is the one the row gather of a table
  `[N, C]` reads its row at, so a vector and a matrix gathered at the same positions read the same node. Generic in
  the sizes `N`, `E`, the width of the index words and the element type.
-/
import Idealize.ShloMosaic.PureOps.Ideal
import Idealize.ShloMosaic.Lib.ValueIdx
import proofs.«169217_j1168231104918_2_alg».proof.Proof.LibRowGather

noncomputable section

namespace Cert.VecGather

open Idealize.ShloMosaic Idealize.ShloMosaic.ValueIdx

/-- The dimension numbers of `T[idx]` for `T : [N]` and the positions as `[E, 1]`: offset_dims [],
    collapsed_slice_dims [0], start_index_map [0], index_vector_dim 1, slice_sizes [1]. -/
abbrev dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads its one start index at `(e, 0)` of the positions. -/
theorem siIdx_eq {N E : Nat} (wf : GatherDims.WF ⟨1, ![N]⟩ ⟨2, ![E, 1]⟩ ⟨1, ![E]⟩ [] [0] [] [0] [] 1 ![1]) (e : Fin E) :
    (dims N E wf).siIdx (ix1 e) ⟨List.idxOf (0 : Fin 1) (dims N E wf).startIndexMap,
        List.idxOf_lt_length_iff.2 (List.mem_singleton.mpr rfl)⟩ = ix2 e (0 : Fin 1) := by
  funext b; refine Fin.ext ?_
  match b with
  | ⟨0, _⟩ => rfl
  | ⟨1, _⟩ => rfl

/-- THE VECTOR GATHER READ AT `e`: `T[idx][e] = T[row e]`, the position the `e`-th start index names once read
    signed and clamped into `[0, N − 1]`. -/
theorem gather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims N E wf) x idx (ix1 e) = x (ix1 (Cert.RowGather.row hN idx e)) := by
  unfold Host.gather
  congr 1
  funext a
  obtain rfl : a = 0 := Subsingleton.elim _ _
  refine Fin.ext ?_
  show (dims N E wf).start (ix1 e) idx 0 + (dims N E wf).batchCoord (ix1 e) 0 + (dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims N E wf).startIndexMap from List.mem_singleton.mpr rfl)]
  rw [siIdx_eq wf e]
  rfl

end Cert.VecGather

end
-- ==== Proof.LibVecScatterAdd.lean ====
/-
  THE VECTOR SCATTER-ADD READ AT AN INDEX. For an operand `x : [N]`, an integer array of `E` element numbers and
  updates `upd : [E]`, the arrays `jax.ops.segment_sum(upd, idx)` and `x.at[idx].add(upd)` are `stablehlo.scatter`
  with an `add` body, no update window axis, inserted_window_dims [0], scatter_dims_to_operand_dims [0] and
  index_vector_dim 1 over the element numbers as `[E, 1]`. Update element `e` lands on operand element `n` exactly
  when the `e`-th number, read as a signed integer and NOT clamped, is `n`; an update whose number is negative or at
  least `N` is dropped. So, over the extended reals, the result's element `n` is `x n` plus the sum of `upd e` over
  the `e` whose number is `n`. Generic in the sizes `N`, `E` and the width of the index words.
-/
import Idealize.ShloMosaic.PureOps.Ideal
import Idealize.ShloMosaic.Lib.ValueIdx

noncomputable section

open scoped BigOperators

namespace Cert.VecScatterAdd

open Idealize.ShloMosaic Idealize.ShloMosaic.ValueIdx

/-- The dimension numbers of `jax.ops.segment_sum(upd, idx)` / `zeros.at[idx].add(upd)` for an operand `[N]`, the
    indices as `[E, 1]` and updates `[E]`: no update window axis, inserted_window_dims [0],
    scatter_dims_to_operand_dims [0], index_vector_dim 1. -/
abbrev dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on element `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update `e` starts at the `e`-th number, read signed. -/
theorem start_elt : (dims N E wf).start (ix1 e) idx 0 = (idx (ix2 e (0 : Fin 1))).toInt := by
  unfold ScatterDims.start
  rw [dif_pos (show (0 : Fin 1) ∈ (dims N E wf).scatterDimsToOperandDims from List.mem_singleton.mpr rfl)]
  have hsi : (dims N E wf).siIdx (ix1 e) ⟨List.idxOf (0 : Fin 1) (dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: it takes no window coordinate. -/
theorem not_mem_sKept (a : Fin 1) : a ∉ (dims N E wf).sKept := by
  simp [ScatterDims.sKept, Shape.kept, List.mem_filter, List.mem_finRange, Fin.fin_one_eq_zero a]

/-- On the operand's axis, an inserted one, the window coordinate is `0`. -/
theorem window_elt : (dims N E wf).window (ix1 e) 0 = 0 := by
  unfold ScatterDims.window
  rw [dif_neg (not_mem_sKept wf 0)]

end Coordinates

/-- WHERE AN UPDATE LANDS: update element `e` lands on operand element `n` exactly when the `e`-th number, read
    signed and not clamped, is `n`. -/
theorem resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (dims N E wf).resultIdx? (ix1 e) idx = some (ix1 n) ↔ hits idx e n := by
  have hs0 := start_elt wf idx e
  have hw0 := window_elt wf e
  have hn : n.val < N := n.isLt
  unfold hits
  unfold ScatterDims.resultIdx?
  split
  · rename_i h
    rw [Option.some.injEq]
    constructor
    · intro hf
      have h0 := congrArg Fin.val (congrFun hf 0)
      have hb0 := (h 0).1
      simp only [hs0, hw0] at h0 hb0
      change (((idx (ix2 e (0 : Fin 1))).toInt + ((0 : Nat) : Int)).toNat) = n.val at h0
      omega
    · intro hhit
      funext a
      refine Fin.ext ?_
      match a with
      | ⟨0, _⟩ =>
        show ((dims N E wf).start (ix1 e) idx 0 + ((dims N E wf).window (ix1 e) 0 : Nat)).toNat = n.val
        rw [hs0, hw0, hhit]; omega
  · rename_i h
    constructor
    · intro hf; exact absurd hf (by simp)
    · intro hhit
      exfalso; apply h
      intro a
      match a with
      | ⟨0, _⟩ =>
        show 0 ≤ (dims N E wf).start (ix1 e) idx 0 + ((dims N E wf).window (ix1 e) 0 : Nat) ∧
          (dims N E wf).start (ix1 e) idx 0 + ((dims N E wf).window (ix1 e) 0 : Nat) < (N : Int)
        rw [hs0, hw0, hhit]; omega

/-- THE VECTOR SCATTER-ADD READ AT `n`: the operand's element plus the sum, over the updates `e` whose number (read
    signed, not clamped) is `n`, of the update's element `e`. -/
theorem scatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (dims N E wf) x idx upd (ix1 n)
      = x (ix1 n) + ∑ e : Fin E, if hits idx e n then upd (ix1 e) else 0 := by
  unfold Ideal.hostScatterAdd
  congr 1
  rw [Finset.sum_filter, sum_idx1]
  refine Finset.sum_congr rfl fun e _ => ?_
  by_cases h2 : hits idx e n
  · rw [if_pos ((resultIdx?_eq_some_iff wf idx e n).mpr h2), if_pos h2]
  · rw [if_neg (fun h => h2 ((resultIdx?_eq_some_iff wf idx e n).mp h)), if_neg h2]

/-- The same read of the host's accumulating scatter as a program states it (`Host.scatterAdd`) at the ideal instance,
    where it is that exact sum whatever the float format. -/
theorem host_scatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w)
    (upd : FVec Ideal ⟨1, ![E]⟩ φ) (n : Fin N) :
    Host.scatterAdd (F := Ideal) (dims N E wf) x idx upd (ix1 n)
      = x (ix1 n) + ∑ e : Fin E, if hits idx e n then upd (ix1 e) else 0 :=
  scatterAdd_apply wf x idx upd n

end Cert.VecScatterAdd

end
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«169217_j1168231104918_2_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.RefValue.lean ====
/-
  The reference program read as the network gcnR.

  The program computes, from the edge list, three integer columns (the source node of every edge, wrapped; the
  destination node of every edge, wrapped; the destination node of every edge, not wrapped, for the accumulating
  scatter) and the vector of node scales; then twice "features times weights, gather the source rows, scale every
  message by the product of the two end points' scales, accumulate the messages on their destination nodes, add the
  bias", with a positive part in between; and a log-softmax of every row after subtracting the row's maximum. Read
  at an entry (n, c), stage by stage, that is the network gcnR over that graph data.
-/
import proofs.«169217_j1168231104918_2_alg».proof.Proof.RefRead
import proofs.«169217_j1168231104918_2_alg».proof.Proof.GcnGraph
import proofs.«169217_j1168231104918_2_alg».proof.Proof.LibVecGather
import proofs.«169217_j1168231104918_2_alg».proof.Proof.LibVecScatterAdd
import proofs.«169217_j1168231104918_2_alg».proof.Proof.LibHostSoftmax
import Idealize.ShloMosaic.Lib.IdealHost

noncomputable section

open scoped BigOperators

namespace Cert.ReferenceIdeal.RefValue

open Cert.ReferenceIdeal Cert.ReferenceIdeal.ReadP Cert.Gcn Idealize.ShloMosaic Idealize.ShloMosaic.ValueIdx

set_option quotPrecheck false in
local notation "TX0" => (⟨S50000x64, .f32⟩ : BufTy).Contents (Elt Ideal)
set_option quotPrecheck false in
local notation "TX1" => (⟨S2x800000, .i32⟩ : BufTy).Contents (Elt Ideal)
set_option quotPrecheck false in
local notation "TX2" => (⟨S64x64, .f32⟩ : BufTy).Contents (Elt Ideal)
set_option quotPrecheck false in
local notation "TX3" => (⟨S64, .f32⟩ : BufTy).Contents (Elt Ideal)
set_option quotPrecheck false in
local notation "TX4" => (⟨S64x16, .f32⟩ : BufTy).Contents (Elt Ideal)
set_option quotPrecheck false in
local notation "TX5" => (⟨S16, .f32⟩ : BufTy).Contents (Elt Ideal)

/-- two indices of a rank-one shape with the same coordinate are equal -/
local macro "idx_one" : tactic => `(tactic| exact funext fun a => Fin.ext (by match a with | ⟨0, _⟩ => rfl))
/-- two indices of a rank-two shape with the same coordinates are equal -/
local macro "idx_two" : tactic => `(tactic| exact funext fun a => Fin.ext (by match a with | ⟨0, _⟩ => rfl | ⟨1, _⟩ => rfl))

/-! ## Constants -/

/-- The pattern of minus infinity denotes the bottom of the extended reals. -/
theorem ofBits_negInf : Ideal.ofBits .f32 0xFF800000#32 = (⊥ : EReal) := by simp [Ideal.ofBits, Ideal.ieee]

/-- The pattern of one denotes a real number. -/
theorem isReal_one : IsReal (Ideal.ofBits .f32 0x3F800000#32) := ⟨1, Ideal.ofBits_one_f32.trans EReal.coe_one.symm⟩

/-! ## The stages the program repeats are the same terms -/

theorem v37_eq (x1 : TX1) : val_main_v37 (F := Ideal) x1 = val_main_v21 (F := Ideal) x1 := rfl
theorem v78_eq (x1 : TX1) : val_main_v78 (F := Ideal) x1 = val_main_v21 (F := Ideal) x1 := rfl
theorem v42_eq (x1 : TX1) : val_main_v42 (F := Ideal) x1 = val_main_v10 (F := Ideal) x1 := rfl
theorem v83_eq (x1 : TX1) : val_main_v83 (F := Ideal) x1 = val_main_v10 (F := Ideal) x1 := rfl

/-! ## The graph data -/

/-- The degree of a node is a real number: zero plus a sum of ones and zeros. -/
theorem deg_isReal (x1 : TX1) (n : Fin 50000) : IsReal (val_main_v11 (F := Ideal) x1 (ix1 n)) := by
  have e : val_main_v11 (F := Ideal) x1 (ix1 n)
      = val_main_v9 (F := Ideal) (ix1 n) + ∑ e : Fin 850000,
          if Cert.VecScatterAdd.hits (val_main_v10 (F := Ideal) x1) e n then val_main_v8 (F := Ideal) (ix1 e) else 0 :=
    Cert.VecScatterAdd.host_scatterAdd_apply (φ := .f32) scatter_S50000_S850000x1_S850000_n_0_0_1.wf
      (val_main_v9 (F := Ideal)) (val_main_v10 (F := Ideal) x1) (val_main_v8 (F := Ideal)) n
  rw [e]
  refine IsReal.add ?_ (IsReal.sum _ _ fun e => IsReal.ite ?_ isReal_zero)
  · rw [show val_main_v9 (F := Ideal) (ix1 n) = 0 from
      (val_main_v9_apply _).trans ((val_main_cst_0_apply _).trans Ideal.ofBits_zero_f32)]
    exact isReal_zero
  · rw [show val_main_v8 (F := Ideal) (ix1 e) = Ideal.ofBits .f32 0x3F800000#32 from
      (val_main_v8_apply _).trans (val_main_cst_apply _)]
    exact isReal_one

/-- every node's scale is a real number: the degree is a count (zero plus a sum of ones and zeros), and a positive real
    has a real inverse square root -/
theorem scale_isReal (x1 : (⟨S2x800000, .i32⟩ : BufTy).Contents (Elt Ideal)) (n : Fin 50000) :
    IsReal (nodeScale (val_main_v15 (F := Ideal) x1) n) := by
  have h0 : val_main_v12 (F := Ideal) (ix1 n) = 0 :=
    (val_main_v12_apply _).trans ((val_main_cst_1_apply _).trans Ideal.ofBits_zero_f32)
  have h1 : val_main_call0_v1 (F := Ideal) (ix1 n) = 0 :=
    (val_main_call0_v1_apply _).trans ((val_main_call0_v0_apply _).trans ((val_main_cst_2_apply _).trans Ideal.ofBits_zero_f32))
  have e : nodeScale (val_main_v15 (F := Ideal) x1) n
      = Scalar.select (Ideal.cmp .ogt (val_main_v11 (F := Ideal) x1 (ix1 n)) 0)
          (Ideal.rsqrt (val_main_v11 (F := Ideal) x1 (ix1 n))) 0 := by
    refine (val_main_v15_apply x1 (ix1 n)).trans ?_
    rw [val_main_v13_apply, val_main_v14_apply, h0, h1, Ideal.cmpf_def, Ideal.hostUnary_rsqrt_def]
  rw [e]
  exact isReal_invSqrt_or_zero _ (deg_isReal x1 n)

/-- an edge the scatter-add lands on node n gathers its destination scale at node n: a number that reads signed as n,
    with 0 ≤ n < 50000, is not negative, so it is not wrapped, and clamping leaves it -/
theorem dst_of_hit (x1 : (⟨S2x800000, .i32⟩ : BufTy).Contents (Elt Ideal)) (e : Fin 850000) (n : Fin 50000) :
    edgeHits (val_main_v10 (F := Ideal) x1) e n → edgeRow (val_main_v28 (F := Ideal) x1) e = n := by
  intro h
  have e10 : val_main_v10 (F := Ideal) x1 (ix2 e (0 : Fin 1)) = val_main_v6 (F := Ideal) x1 (ix1 e) :=
    (val_main_v10_apply x1 _).trans (congrArg (val_main_v6 (F := Ideal) x1) (by idx_one))
  have hw : (val_main_v6 (F := Ideal) x1 (ix1 e)).toInt = (n.val : Int) := by
    have h' := (edgeHits_iff _ e n).mp h
    rwa [e10] at h'
  have h23 : val_main_v23 (F := Ideal) (ix1 e) = 0#32 := (val_main_v23_apply _).trans (val_main_c_4_apply _)
  have hlt : (val_main_v6 (F := Ideal) x1 (ix1 e)).slt 0#32 = false := by
    rw [BitVec.slt_eq_decide, BitVec.toInt_zero, hw]
    exact decide_eq_false (by omega)
  have h27 : val_main_v27 (F := Ideal) x1 (ix1 e) = val_main_v6 (F := Ideal) x1 (ix1 e) := by
    show Scalar.select (BitVec.ofBool ((val_main_v6 (F := Ideal) x1 (ix1 e)).slt (val_main_v23 (F := Ideal) (ix1 e))))
      (val_main_v26 (F := Ideal) x1 (ix1 e)) (val_main_v6 (F := Ideal) x1 (ix1 e)) = _
    rw [h23, hlt]
    exact select_zero _ _
  have e28 : val_main_v28 (F := Ideal) x1 (ix2 e (0 : Fin 1)) = val_main_v6 (F := Ideal) x1 (ix1 e) :=
    (val_main_v28_apply x1 _).trans ((congrArg (val_main_v27 (F := Ideal) x1) (by idx_one)).trans h27)
  refine Fin.ext ?_
  rw [edgeRow_val, e28, hw]
  have := n.isLt
  omega

/-- The program's vector gather is the gather of a vector [N] at positions [E, 1]. -/
theorem vecGather_eq : gather_S50000_S850000x1_S850000_n_0_n_n_0_1_1
    = Cert.VecGather.dims 50000 850000 gather_S50000_S850000x1_S850000_n_0_n_n_0_1_1.wf := rfl

/-- The scale gathered at the source column: the scale of the edge's source node. -/
theorem v22_apply (x1 : TX1) (e : Fin 850000) :
    val_main_v22 (F := Ideal) x1 (ix1 e)
      = nodeScale (val_main_v15 (F := Ideal) x1) (edgeRow (val_main_v21 (F := Ideal) x1) e) := by
  unfold val_main_v22
  rw [vecGather_eq]
  exact Cert.VecGather.gather_apply (N := 50000) (by decide) _ (val_main_v15 (F := Ideal) x1) (val_main_v21 (F := Ideal) x1) e

/-- The scale gathered at the wrapped destination column: the scale of the node that column names. -/
theorem v29_apply (x1 : TX1) (e : Fin 850000) :
    val_main_v29 (F := Ideal) x1 (ix1 e)
      = nodeScale (val_main_v15 (F := Ideal) x1) (edgeRow (val_main_v28 (F := Ideal) x1) e) := by
  unfold val_main_v29
  rw [vecGather_eq]
  exact Cert.VecGather.gather_apply (N := 50000) (by decide) _ (val_main_v15 (F := Ideal) x1) (val_main_v28 (F := Ideal) x1) e

/-- The per-edge norm: the product of the scales of the edge's two end points. -/
theorem norm_apply (x1 : TX1) (e : Fin 850000) :
    val_main_v30 (F := Ideal) x1 (ix1 e)
      = nodeScale (val_main_v15 (F := Ideal) x1) (edgeRow (val_main_v21 (F := Ideal) x1) e)
        * nodeScale (val_main_v15 (F := Ideal) x1) (edgeRow (val_main_v28 (F := Ideal) x1) e) := by
  refine (val_main_v30_apply x1 (ix1 e)).trans ?_
  rw [Ideal.mulf_def, v22_apply, v29_apply]
/-! ## One layer -/

/-- The accumulating scatter of per-edge messages onto zeros, plus a bias, read at (n, c): when the message of edge e in
    column c is the product of the two end points' scales times the source node's feature, this is the layer
    layerR. -/
theorem layer_core {C : ℕ}
    (wfS : ScatterDims.WF ⟨2, ![50000, C]⟩ ⟨2, ![850000, 1]⟩ ⟨2, ![850000, C]⟩ [1] [0] [0] 1)
    (zero : FVec Ideal ⟨2, ![50000, C]⟩ .f32) (dcol : IVec ⟨2, ![850000, 1]⟩ 32)
    (upd : FVec Ideal ⟨2, ![850000, C]⟩ .f32) (bias : FVec Ideal ⟨2, ![50000, C]⟩ .f32)
    (dinv : Fin 50000 → EReal) (src dst : Fin 850000 → Fin 50000) (T : Fin 50000 → Fin C → EReal) (b : Fin C → EReal)
    (n : Fin 50000) (c : Fin C)
    (hz : zero (ix2 n c) = 0)
    (hu : ∀ e, upd (ix2 e c) = (dinv (src e) * dinv (dst e)) * T (src e) c)
    (hb : bias (ix2 n c) = b c) :
    addf (Host.scatterAdd (F := Ideal) (Cert.RowScatterAdd.dims 50000 850000 C wfS) zero dcol upd) bias (ix2 n c)
      = layerR dinv src dst (edgeHits dcol) T b n c := by
  unfold layerR
  refine (addf_apply _ _ _).trans (congrArg₂ (· + ·) ?_ hb)
  refine (Cert.RowScatterAdd.host_scatterAdd_apply wfS zero dcol upd n c).trans ?_
  refine congrArg₂ (· + ·) hz (Finset.sum_congr rfl fun e _ => ?_)
  by_cases h : edgeHits dcol e n
  · have h' : Cert.RowScatterAdd.hits dcol e n := h
    rw [if_pos h', if_pos h]; exact hu e
  · have h' : ¬ Cert.RowScatterAdd.hits dcol e n := h
    rw [if_neg h', if_neg h]

/-- The program's row gathers and row scatters are the gather of rows of a table [N, C] at positions [E, 1] and the
    accumulating scatter of rows [E, C] into a table [N, C]. -/
theorem rowGather64_eq : gather_S50000x64_S850000x1_S850000x64_1_0_n_n_0_1_164
    = Cert.RowGather.dims 50000 850000 64 gather_S50000x64_S850000x1_S850000x64_1_0_n_n_0_1_164.wf := rfl
theorem rowGather16_eq : gather_S50000x16_S850000x1_S850000x16_1_0_n_n_0_1_116
    = Cert.RowGather.dims 50000 850000 16 gather_S50000x16_S850000x1_S850000x16_1_0_n_n_0_1_116.wf := rfl
theorem rowScatter64_eq : scatter_S50000x64_S850000x1_S850000x64_1_0_0_1
    = Cert.RowScatterAdd.dims 50000 850000 64 scatter_S50000x64_S850000x1_S850000x64_1_0_0_1.wf := rfl
theorem rowScatter16_eq : scatter_S50000x16_S850000x1_S850000x16_1_0_0_1
    = Cert.RowScatterAdd.dims 50000 850000 16 scatter_S50000x16_S850000x1_S850000x16_1_0_0_1.wf := rfl

/-- Features times the first weights at (n, c). -/
theorem lin1_apply (x0 : TX0) (x2 : TX2) (n : Fin 50000) (c : Fin 64) :
    val_main_v7 (F := Ideal) x0 x2 (ix2 n c) = lin (mat x0) (mat x2) n c := by
  refine (val_main_v7_apply x0 x2 _).trans ?_
  unfold lin mat
  refine Finset.sum_congr rfl fun k _ => ?_
  rw [show lidx_main_v7 (ix2 n c) k = ix2 n k from by idx_two, show ridx_main_v7 (ix2 n c) k = ix2 k c from by idx_two]

/-- The rows of the first product gathered at the source column. -/
theorem v38_apply (x0 : TX0) (x1 : TX1) (x2 : TX2) (e : Fin 850000) (c : Fin 64) :
    val_main_v38 (F := Ideal) x0 x1 x2 (ix2 e c) = lin (mat x0) (mat x2) (edgeRow (val_main_v21 (F := Ideal) x1) e) c := by
  unfold val_main_v38
  rw [rowGather64_eq, v37_eq]
  exact (Cert.RowGather.gather_apply (N := 50000) (by decide) _ (val_main_v7 (F := Ideal) x0 x2)
    (val_main_v21 (F := Ideal) x1) e c).trans (lin1_apply x0 x2 _ c)

/-- The message of edge e in column c of the first layer. -/
theorem v40_apply (x0 : TX0) (x1 : TX1) (x2 : TX2) (e : Fin 850000) (c : Fin 64) :
    val_main_v40 (F := Ideal) x0 x1 x2 (ix2 e c)
      = (nodeScale (val_main_v15 (F := Ideal) x1) (edgeRow (val_main_v21 (F := Ideal) x1) e)
          * nodeScale (val_main_v15 (F := Ideal) x1) (edgeRow (val_main_v28 (F := Ideal) x1) e))
        * lin (mat x0) (mat x2) (edgeRow (val_main_v21 (F := Ideal) x1) e) c := by
  refine (val_main_v40_apply x0 x1 x2 _).trans ?_
  rw [Ideal.mulf_def, v38_apply, val_main_v39_apply, val_main_v31_apply,
    show idx_main_v31 (idx_main_v39 (ix2 e c)) = ix1 e from by idx_one, norm_apply]

/-- The first layer at (n, c). -/
theorem layer1_apply (x0 : TX0) (x1 : TX1) (x2 : TX2) (x3 : TX3) (n : Fin 50000) (c : Fin 64) :
    val_main_v46 (F := Ideal) x0 x1 x2 x3 (ix2 n c)
      = layerR (nodeScale (val_main_v15 (F := Ideal) x1)) (edgeRow (val_main_v21 (F := Ideal) x1))
          (edgeRow (val_main_v28 (F := Ideal) x1)) (edgeHits (val_main_v10 (F := Ideal) x1))
          (lin (mat x0) (mat x2)) (vec x3) n c := by
  unfold val_main_v46 val_main_v43
  rw [rowScatter64_eq, v42_eq]
  exact layer_core _ (val_main_v41 (F := Ideal)) (val_main_v10 (F := Ideal) x1) (val_main_v40 (F := Ideal) x0 x1 x2)
    (val_main_v45 (F := Ideal) x3) _ _ _ _ _ n c
    ((val_main_v41_apply _).trans ((val_main_cst_8_apply _).trans Ideal.ofBits_zero_f32))
    (fun e => v40_apply x0 x1 x2 e c)
    ((val_main_v45_apply x3 _).trans ((val_main_v44_apply x3 _).trans (congrArg x3 (by idx_one))))

/-- The positive part of the first layer at (n, k). -/
theorem relu1_apply (x0 : TX0) (x1 : TX1) (x2 : TX2) (x3 : TX3) (n : Fin 50000) (k : Fin 64) :
    val_main_v47 (F := Ideal) x0 x1 x2 x3 (ix2 n k)
      = relu (layerR (nodeScale (val_main_v15 (F := Ideal) x1)) (edgeRow (val_main_v21 (F := Ideal) x1))
          (edgeRow (val_main_v28 (F := Ideal) x1)) (edgeHits (val_main_v10 (F := Ideal) x1))
          (lin (mat x0) (mat x2)) (vec x3) n k) := by
  have hz : val_main_call1_v0 (F := Ideal) (ix2 n k) = (0 : EReal) :=
    (val_main_call1_v0_apply _).trans ((val_main_call1_cst_apply _).trans Ideal.ofBits_zero_f32)
  refine (val_main_v47_apply x0 x1 x2 x3 _).trans ?_
  rw [Ideal.maximumf_def, layer1_apply, hz]
  rfl

/-- The hidden features times the second weights at (n, c). -/
theorem lin2_apply (x0 : TX0) (x1 : TX1) (x2 : TX2) (x3 : TX3) (x4 : TX4) (n : Fin 50000) (c : Fin 16) :
    val_main_v48 (F := Ideal) x0 x1 x2 x3 x4 (ix2 n c)
      = lin (fun n' k => relu (layerR (nodeScale (val_main_v15 (F := Ideal) x1)) (edgeRow (val_main_v21 (F := Ideal) x1))
          (edgeRow (val_main_v28 (F := Ideal) x1)) (edgeHits (val_main_v10 (F := Ideal) x1))
          (lin (mat x0) (mat x2)) (vec x3) n' k)) (mat x4) n c := by
  refine (val_main_v48_apply x0 x1 x2 x3 x4 _).trans ?_
  unfold lin
  refine Finset.sum_congr rfl fun k _ => ?_
  rw [show lidx_main_v48 (ix2 n c) k = ix2 n k from by idx_two, show ridx_main_v48 (ix2 n c) k = ix2 k c from by idx_two,
    relu1_apply]
  rfl

/-- The second layer computes the same per-edge norm. -/
theorem v71_eq (x1 : TX1) : val_main_v71 (F := Ideal) x1 = val_main_v30 (F := Ideal) x1 := rfl

/-- The rows of the second product gathered at the source column. -/
theorem v79_apply (x0 : TX0) (x1 : TX1) (x2 : TX2) (x3 : TX3) (x4 : TX4) (e : Fin 850000) (c : Fin 16) :
    val_main_v79 (F := Ideal) x0 x1 x2 x3 x4 (ix2 e c)
      = lin (fun n' k => relu (layerR (nodeScale (val_main_v15 (F := Ideal) x1)) (edgeRow (val_main_v21 (F := Ideal) x1))
          (edgeRow (val_main_v28 (F := Ideal) x1)) (edgeHits (val_main_v10 (F := Ideal) x1))
          (lin (mat x0) (mat x2)) (vec x3) n' k)) (mat x4) (edgeRow (val_main_v21 (F := Ideal) x1) e) c := by
  unfold val_main_v79
  rw [rowGather16_eq, v78_eq]
  exact (Cert.RowGather.gather_apply (N := 50000) (by decide) _ (val_main_v48 (F := Ideal) x0 x1 x2 x3 x4)
    (val_main_v21 (F := Ideal) x1) e c).trans (lin2_apply x0 x1 x2 x3 x4 _ c)

/-- The message of edge e in column c of the second layer. -/
theorem v81_apply (x0 : TX0) (x1 : TX1) (x2 : TX2) (x3 : TX3) (x4 : TX4) (e : Fin 850000) (c : Fin 16) :
    val_main_v81 (F := Ideal) x0 x1 x2 x3 x4 (ix2 e c)
      = (nodeScale (val_main_v15 (F := Ideal) x1) (edgeRow (val_main_v21 (F := Ideal) x1) e)
          * nodeScale (val_main_v15 (F := Ideal) x1) (edgeRow (val_main_v28 (F := Ideal) x1) e))
        * lin (fun n' k => relu (layerR (nodeScale (val_main_v15 (F := Ideal) x1)) (edgeRow (val_main_v21 (F := Ideal) x1))
          (edgeRow (val_main_v28 (F := Ideal) x1)) (edgeHits (val_main_v10 (F := Ideal) x1))
          (lin (mat x0) (mat x2)) (vec x3) n' k)) (mat x4) (edgeRow (val_main_v21 (F := Ideal) x1) e) c := by
  refine (val_main_v81_apply x0 x1 x2 x3 x4 _).trans ?_
  rw [Ideal.mulf_def, v79_apply, val_main_v80_apply, val_main_v72_apply,
    show idx_main_v72 (idx_main_v80 (ix2 e c)) = ix1 e from by idx_one, v71_eq, norm_apply]

/-- The second layer at (n, c). -/
theorem layer2_apply (x0 : TX0) (x1 : TX1) (x2 : TX2) (x3 : TX3) (x4 : TX4) (x5 : TX5) (n : Fin 50000) (c : Fin 16) :
    val_main_v87 (F := Ideal) x0 x1 x2 x3 x4 x5 (ix2 n c)
      = layerR (nodeScale (val_main_v15 (F := Ideal) x1)) (edgeRow (val_main_v21 (F := Ideal) x1))
          (edgeRow (val_main_v28 (F := Ideal) x1)) (edgeHits (val_main_v10 (F := Ideal) x1))
          (lin (fun n' k => relu (layerR (nodeScale (val_main_v15 (F := Ideal) x1)) (edgeRow (val_main_v21 (F := Ideal) x1))
            (edgeRow (val_main_v28 (F := Ideal) x1)) (edgeHits (val_main_v10 (F := Ideal) x1))
            (lin (mat x0) (mat x2)) (vec x3) n' k)) (mat x4)) (vec x5) n c := by
  unfold val_main_v87 val_main_v84
  rw [rowScatter16_eq, v83_eq]
  exact layer_core _ (val_main_v82 (F := Ideal)) (val_main_v10 (F := Ideal) x1) (val_main_v81 (F := Ideal) x0 x1 x2 x3 x4)
    (val_main_v86 (F := Ideal) x5) _ _ _ _ _ n c
    ((val_main_v82_apply _).trans ((val_main_cst_19_apply _).trans Ideal.ofBits_zero_f32))
    (fun e => v81_apply x0 x1 x2 x3 x4 e c)
    ((val_main_v86_apply x5 _).trans ((val_main_v85_apply x5 _).trans (congrArg x5 (by idx_one))))

/-! ## The log-softmax of a row -/

/-- The result at (n, c) is the log-softmax of row n of the second layer: the row's maximum is folded from minus
    infinity (and its maximum with minus infinity is itself), the exponentials are summed from zero. -/
theorem logSoftmax_apply (x0 : TX0) (x1 : TX1) (x2 : TX2) (x3 : TX3) (x4 : TX4) (x5 : TX5) (n : Fin 50000) (c : Fin 16) :
    val_main_v88 (F := Ideal) x0 x1 x2 x3 x4 x5 (ix2 n c)
      = logSoftmaxRow (fun c' => val_main_v87 (F := Ideal) x0 x1 x2 x3 x4 x5 (ix2 n c')) c := by
  -- the row's maximum, folded from minus infinity
  have h1 : val_main_call3_v1 (F := Ideal) (ix1 n) = (⊥ : EReal) :=
    (val_main_call3_v1_apply _).trans ((val_main_call3_cst_0_apply _).trans ofBits_negInf)
  have hc : val_main_call3_cst (F := Ideal) (Shape.Idx.first Gen.h_S_) = (⊥ : EReal) :=
    (val_main_call3_cst_apply _).trans ofBits_negInf
  have h0 : val_main_call3_v0 (F := Ideal) x0 x1 x2 x3 x4 x5 (ix1 n)
      = (Finset.univ : Finset (Fin 16)).fold max (⊥ : EReal)
          (fun c'' => val_main_v87 (F := Ideal) x0 x1 x2 x3 x4 x5 (ix2 n c'')) := by
    unfold val_main_call3_v0
    refine (Cert.HostSoftmax.rowMax_apply (val_main_v87 (F := Ideal) x0 x1 x2 x3 x4 x5) (val_main_call3_cst (F := Ideal))
      _ (by decide) _ n).trans ?_
    rw [hc]
  have h2 : val_main_call3_v2 (F := Ideal) x0 x1 x2 x3 x4 x5 (ix1 n)
      = (Finset.univ : Finset (Fin 16)).fold max (⊥ : EReal)
          (fun c'' => val_main_v87 (F := Ideal) x0 x1 x2 x3 x4 x5 (ix2 n c'')) := by
    refine (val_main_call3_v2_apply x0 x1 x2 x3 x4 x5 _).trans ?_
    rw [Ideal.maximumf_def, h1, h0]
    exact max_bot_left _
  -- the row less its maximum
  have h5 : ∀ c' : Fin 16, val_main_call3_v5 (F := Ideal) x0 x1 x2 x3 x4 x5 (ix2 n c')
      = val_main_v87 (F := Ideal) x0 x1 x2 x3 x4 x5 (ix2 n c')
        - (Finset.univ : Finset (Fin 16)).fold max (⊥ : EReal)
            (fun c'' => val_main_v87 (F := Ideal) x0 x1 x2 x3 x4 x5 (ix2 n c'')) := fun c' => by
    refine (val_main_call3_v5_apply x0 x1 x2 x3 x4 x5 _).trans ?_
    rw [Ideal.subf_def, val_main_call3_v4_apply, val_main_call3_v3_apply,
      show idx_main_call3_v3 (idx_main_call3_v4 (ix2 n c')) = ix1 n from by idx_one, h2]
  -- the sum of the exponentials, from zero
  have h7 : val_main_call3_v7 (F := Ideal) x0 x1 x2 x3 x4 x5 (ix1 n)
      = ∑ c' : Fin 16, Ideal.exp (val_main_v87 (F := Ideal) x0 x1 x2 x3 x4 x5 (ix2 n c')
          - (Finset.univ : Finset (Fin 16)).fold max (⊥ : EReal)
              (fun c'' => val_main_v87 (F := Ideal) x0 x1 x2 x3 x4 x5 (ix2 n c''))) := by
    refine (val_main_call3_v7_apply x0 x1 x2 x3 x4 x5 (ix1 n)).trans ?_
    rw [show val_main_call3_cst_1 (F := Ideal) (Shape.Idx.first Gen.h_S_) = (0 : EReal) from
      (val_main_call3_cst_1_apply _).trans Ideal.ofBits_zero_f32, zero_add]
    refine Finset.sum_congr rfl fun k _ => ?_
    rw [show idx_main_call3_v7 (ix1 n) k = ix2 n k from by idx_two, val_main_call3_v6_apply, Ideal.hostUnary_exp_def, h5]
  -- its logarithm, spread back over the row
  have h10 : val_main_call3_v10 (F := Ideal) x0 x1 x2 x3 x4 x5 (ix2 n c)
      = Ideal.log (∑ c' : Fin 16, Ideal.exp (val_main_v87 (F := Ideal) x0 x1 x2 x3 x4 x5 (ix2 n c')
          - (Finset.univ : Finset (Fin 16)).fold max (⊥ : EReal)
              (fun c'' => val_main_v87 (F := Ideal) x0 x1 x2 x3 x4 x5 (ix2 n c'')))) := by
    refine (val_main_call3_v10_apply x0 x1 x2 x3 x4 x5 _).trans ?_
    rw [val_main_call3_v9_apply, Ideal.hostUnary_log_def, val_main_call3_v8_apply,
      show idx_main_call3_v8 (idx_main_call3_v10 (ix2 n c)) = ix1 n from by idx_one, h7]
  refine (val_main_v88_apply x0 x1 x2 x3 x4 x5 _).trans ?_
  rw [Ideal.subf_def, h5, h10]
  rfl

/-! ## The network -/

/-- the reference's result at (n, c) is the network gcnR of the arguments over the graph data the program computes -/
theorem out_apply (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (n : Fin 50000) (c : Fin 16) :
    val_main_v88 (F := Ideal) x0 x1 x2 x3 x4 x5 (ix2 n c)
      = gcnR (nodeScale (val_main_v15 (F := Ideal) x1)) (edgeRow (val_main_v21 (F := Ideal) x1)) (edgeRow (val_main_v28 (F := Ideal) x1))
          (edgeHits (val_main_v10 (F := Ideal) x1)) (mat x0) (mat x2) (vec x3) (mat x4) (vec x5) n c :=
  (logSoftmax_apply x0 x1 x2 x3 x4 x5 n c).trans
    (congrArg (fun z => logSoftmaxRow z c) (funext fun c' => layer2_apply x0 x1 x2 x3 x4 x5 n c'))

end Cert.ReferenceIdeal.RefValue

end
-- ==== Proof.FiniteInputs.lean ====
import proofs.«169217_j1168231104918_2_alg».proof.Pre_finite_inputs
import proofs.«169217_j1168231104918_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Pre_finite_inputs.Decode

open Idealize.ShloMosaic Cert.Pre_finite_inputs

variable [Cert.Pre_finite_inputs.Facts]

/-- An extended real whose absolute value `max x (-x)` lies strictly below `⊤` is a real number:
    at `⊥` and at `⊤` that absolute value is `⊤` itself, which is not below `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- The single-precision pattern with all exponent bits set and a zero significand denotes `⊤`. -/
theorem ofBits_pos_inf : Ideal.ofBits .f32 0x7F800000#32 = ⊤ := by simp [Ideal.ofBits, Ideal.ieee]

/-- A truth value written as a one-bit word is the word one only when it is true. -/
theorem eq_true_of_ofBool_eq_one {b : Bool} (h : BitVec.ofBool b = 1#1) : b = true := by
  cases b
  · exact absurd h (by decide)
  · rfl

/-- The rank-0 shape has exactly one index. -/
instance : Subsingleton S_.Idx := ⟨fun a b => funext fun d => d.elim0⟩

/-- For an array `a` of any shape: if the conjunction, over ALL entries, of the comparisons
    `|a i| < +∞` is one, then every single comparison is one, because a conjunction of one-bit
    words can be one only when each of them is one. So every `|a i|` lies strictly below `⊤`, and
    every entry is a real number. The comparison of extended reals is the order's `<`, the absolute
    value is `max x (-x)`, and the scalar `+∞` spread over the shape reads `⊤` at every index. -/
theorem real_of_all_abs_lt_inf {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : ∃ r : ℝ, (a i : EReal) = (r : EReal) := by
  have h1 := Host.reduce_andi_all _ _ hr hu _ e i
  have h2 : BitVec.ofBool (decide (max (a i) (-(a i)) < Ideal.ofBits .f32 0x7F800000#32)) = 1#1 := h1
  rw [ofBits_pos_inf] at h2
  exact real_of_abs_lt_top (a i) (of_decide_eq_true (eq_true_of_ofBool_eq_one h2))

/-- The finiteness precondition, read back. The predicate is the conjunction of five
    one-bit scalars, one per float argument, each the conjunction over all entries of `|x| < +∞`.
    A conjunction of two one-bit words is one exactly when both are, so the hypothesis splits into
    the five reductions, and each of them says that every entry of its argument is a real number. -/
theorem real_of_finite_inputs
    (a0 : FVec Ideal S50000x64 .f32) (a1 : IVec S2x800000 32) (a2 : FVec Ideal S64x64 .f32) (a3 : FVec Ideal S64 .f32)
    (a4 : FVec Ideal S64x16 .f32) (a5 : FVec Ideal S16 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [fn, fn_part1] at h0
  obtain ⟨h0234, e5⟩ := IntOp.andi_eq_one.1 h0
  obtain ⟨h023, e4⟩ := IntOp.andi_eq_one.1 h0234
  obtain ⟨h02, e3⟩ := IntOp.andi_eq_one.1 h023
  obtain ⟨e0, e2⟩ := IntOp.andi_eq_one.1 h02
  exact ⟨real_of_all_abs_lt_inf a0 _ _ _ e0, real_of_all_abs_lt_inf a2 _ _ _ e2, real_of_all_abs_lt_inf a3 _ _ _ e3,
    real_of_all_abs_lt_inf a4 _ _ _ e4, real_of_all_abs_lt_inf a5 _ _ _ e5⟩

end Cert.Pre_finite_inputs.Decode
-- ==== Proof.lean ====
/-
  A two-layer graph-convolution kernel against its jnp reference: `Cert.Claim`.

  Both programs compute, for 50000 nodes and 850000 edges (the 800000 given and a self-loop per node),
      log_softmax( A · relu( A · (x W1) + b1 ) W2 + b2 )          with   A(n, ·) = ∑ over edges e landing on n of dinv(src e) · dinv(n) · (·)(src e),
  dinv the inverse square root of a node's degree (zero for degree zero). The reference scales every message by both end
  points' scales before the scatter-add; the kernel scales a message by its source's scale inside one region, scatter-adds on
  the host, and multiplies the sum by the destination's scale once in the next region (its three regions fuse x W1 · dinv;
  dinv · agg + b1, relu, · W2 · dinv; and dinv · agg + b2, log-softmax). The two agree by distributivity of multiplication over
  the finite sum, which on the extended reals needs every entry to be a real number: the precondition says the float inputs
  are finite, the degrees are counts, and a positive real has a real inverse square root. An edge whose destination number is
  out of range is dropped by the scatter-add on both sides, and an edge that lands on node n gathers its destination scale at
  n, so nothing is assumed of the integer input.

  * The three frames: the two kernel programs' are the runs of their segments (three regions among stretches of host
    operations); the reference's is its run with the result dropped.
  * `preserves`: the idealization rewrote nothing.
  * `algebraic`: the kernel's run leaves its result at the third region's array, which read back through the regions and
    the host operations between them is, at (n, c), the network `gcnK` over the graph data; the reference's run leaves its
    result at the last stage of its line of operations, which at (n, c) is the network `gcnR` over the same graph data; and
    `gcnK = gcnR` on real inputs.
-/
import proofs.«169217_j1168231104918_2_alg».proof.Defs
import proofs.«169217_j1168231104918_2_alg».proof.Proof.Gen.Kernel
import proofs.«169217_j1168231104918_2_alg».proof.Proof.Gen.Kernel.Skeleton
import proofs.«169217_j1168231104918_2_alg».proof.Proof.Gen.Kernel.Launch
import proofs.«169217_j1168231104918_2_alg».proof.Proof.Gen.Kernel.Points
import proofs.«169217_j1168231104918_2_alg».proof.Proof.Gen.Kernel.Frame
import proofs.«169217_j1168231104918_2_alg».proof.Proof.Gen.KernelIdeal
import proofs.«169217_j1168231104918_2_alg».proof.Proof.Gen.KernelIdeal.Skeleton
import proofs.«169217_j1168231104918_2_alg».proof.Proof.Gen.KernelIdeal.Launch
import proofs.«169217_j1168231104918_2_alg».proof.Proof.Gen.KernelIdeal.Points
import proofs.«169217_j1168231104918_2_alg».proof.Proof.Gen.KernelIdeal.Frame
import proofs.«169217_j1168231104918_2_alg».proof.Proof.Gen.ReferenceIdeal
import proofs.«169217_j1168231104918_2_alg».proof.Proof.Gen.Pre_finite_inputs
import proofs.«169217_j1168231104918_2_alg».proof.Proof.KernelRun
import proofs.«169217_j1168231104918_2_alg».proof.Proof.KernelEntry
import proofs.«169217_j1168231104918_2_alg».proof.Proof.RefRunValue
import proofs.«169217_j1168231104918_2_alg».proof.Proof.RefValue
import proofs.«169217_j1168231104918_2_alg».proof.Proof.FiniteInputs
import Idealize.ShloMosaic.Adequacy
import Idealize.ShloMosaic.Init

noncomputable section

namespace Cert.Proof

open Idealize.ShloMosaic Idealize.SL.Sem Idealize.ShloMosaic.ValueIdx Cert.Gcn

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RunValue.run m ρ)

theorem preserves : Cert.preserves_Kernel_KernelIdeal := trivial

/-- From memories agreeing on the arguments both idealized programs run and end with the same result: at every entry the
    kernel's is `gcnK` and the reference's `gcnR` of the same real inputs over the same graph data. -/
theorem algebraic : Cert.algebraic_KernelIdeal_ReferenceIdeal := by
  intro m ρ m' ρ' hpre hagree
  refine ⟨fun c => Cert.KernelIdeal.Gen.W8 m ρ c (Proc.devRef .tc Cert.KernelIdeal.main_v40),
    Cert.KernelIdeal.RunValue.run_result m ρ, ?_⟩
  refine (θ_run Cert.ReferenceIdeal.defs _ _).mono (fun _ h c => ⟨(h c).1.trans ?_, (h c).2⟩)
    (Cert.ReferenceIdeal.RunValue.run m' ρ')
  obtain ⟨a0, a1, a2, a3, a4, a5⟩ := hagree c
  rw [a0, a1, a2, a3, a4, a5]
  obtain ⟨r0, r2, r3, r4, -⟩ := Cert.Pre_finite_inputs.Decode.real_of_finite_inputs _ _ _ _ _ _ (hpre c)
  funext i
  obtain ⟨n, q, rfl⟩ : ∃ (n : Fin 50000) (q : Fin 16), i = ix2 n q := ⟨i 0, i 1, eq_ix2 i⟩
  refine (Cert.ReferenceIdeal.RefValue.out_apply _ _ _ _ _ _ n q).trans ?_
  refine Eq.trans ?_ (Cert.KernelIdeal.Entry.result_apply m ρ c n q).symm
  exact (gcnK_eq_gcnR _ _ _ _ (fun n' => Cert.ReferenceIdeal.RefValue.scale_isReal _ n')
    (fun e n' => Cert.ReferenceIdeal.RefValue.dst_of_hit _ e n') _ _ _ _ _
    (fun n' k => r0 _) (fun k c' => r2 _) (fun c' => r3 _) (fun k c' => r4 _) n q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
